-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S1 .f32) (main_arg9 : FVec F S256x128 .f32) (main_arg10 : FVec F S128 .f32) (main_arg11 : FVec F S128x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000x32 .f32) (main_arg3 : FVec F S288x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S32x128 : Shape := ⟨2, ![32, 128]⟩
abbrev S1x128 : Shape := ⟨2, ![1, 128]⟩
abbrev S8000x128 : Shape := ⟨2, ![8000, 128]⟩
abbrev S8000x32 : Shape := ⟨2, ![8000, 32]⟩
abbrev S8000 : Shape := ⟨1, ![8000]⟩
abbrev S8000x1 : Shape := ⟨2, ![8000, 1]⟩
abbrev S1x1 : Shape := ⟨2, ![1, 1]⟩
abbrev S5000x128 : Shape := ⟨2, ![5000, 128]⟩

abbrev nBuf : Space → Nat
  | .hbm => 57
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .bf16⟩
  | .hbm, ⟨18, _⟩ => ⟨S800000x32, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S32x128, .f32⟩
  | .hbm, ⟨42, _⟩ => ⟨S32x128, .bf16⟩
  | .hbm, ⟨43, _⟩ => ⟨S128x128, .bf16⟩
  | .hbm, ⟨44, _⟩ => ⟨S1x128, .f32⟩
  | .hbm, ⟨45, _⟩ => ⟨S800000x128, .bf16⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .f32⟩
  | .hbm, ⟨52, _⟩ => ⟨S128x128, .bf16⟩
  | .hbm, ⟨53, _⟩ => ⟨S128x128, .f32⟩
  | .hbm, ⟨54, _⟩ => ⟨S128x128, .bf16⟩
  | .hbm, ⟨55, _⟩ => ⟨S128x128, .bf16⟩
  | .hbm, ⟨56, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x32, .bf16⟩
  | .local _ .vmem, ⟨5, _⟩ => ⟨S8000x32, .bf16⟩
  | .local _ .vmem, ⟨6, _⟩ => ⟨S128x128, .bf16⟩
  | .local _ .vmem, ⟨7, _⟩ => ⟨S128x128, .bf16⟩
  | .local _ .vmem, ⟨8, _⟩ => ⟨S32x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S1x128, .f32⟩
  | .local _ .vmem, ⟨13, _⟩ => ⟨S1, .f32⟩
  | .local _ .vmem, ⟨14, _⟩ => ⟨S8000x128, .bf16⟩
  | .local _ .vmem, ⟨15, _⟩ => ⟨S8000x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .bf16⟩
  | .local _ .vmem, ⟨21, _⟩ => ⟨S128x128, .bf16⟩
  | .local _ .vmem, ⟨22, _⟩ => ⟨S128, .f32⟩
  | .local _ .vmem, ⟨23, _⟩ => ⟨S128x128, .bf16⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S288x128_S128x128_0_0 : S288x128.Slices ![0, 0] S128x128
  slices_S288x128_S128x128_128_0 : S288x128.Slices ![128, 0] S128x128
  slices_S288x128_S32x128_256_0 : S288x128.Slices ![256, 0] S32x128
  transposes_S128x1_S1x128_1_0 : S128x1.Transposes [1, 0] S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S8000x128_S8000 : S8000x128.Reduces [1] S8000
  shapeCasts_S8000_S8000x1 : S8000.ShapeCasts S8000x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  broadcasts_S8000x1_S8000x128 : S8000x1.Broadcasts S8000x128
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S800000x32.size a
  hwx0_2 : ∀ i : grid0.Coords, EltTy.bits .bf16 = 32 ∨ (Rect.block (s := S800000x32) S8000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x128.size a ≤ S800000x128.size a
  hwx0_11 : ∀ i : grid0.Coords, EltTy.bits .bf16 = 32 ∨ (Rect.block (s := S800000x128) S8000x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S8000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S288x128 : Shape := ⟨2, ![288, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x288 : Shape := ⟨2, ![800000, 288]⟩
abbrev S1x128 : Shape := ⟨2, ![1, 128]⟩
abbrev S1x1 : Shape := ⟨2, ![1, 1]⟩
abbrev S50000x256 : Shape := ⟨2, ![50000, 256]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x288, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S_, .f32⟩
  | .hbm, ⟨69, _⟩ => ⟨S800000x1, .f32⟩
  | .hbm, ⟨70, _⟩ => ⟨S800000x1, .f32⟩
  | .hbm, ⟨71, _⟩ => ⟨S_, .f32⟩
  | .hbm, ⟨72, _⟩ => ⟨S800000x1, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x256, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst : Ref sig .tc := ⟨.hbm, 68, rfl⟩
abbrev main_v35 : Ref sig .tc := ⟨.hbm, 69, rfl⟩
abbrev main_v36 : Ref sig .tc := ⟨.hbm, 70, rfl⟩
abbrev main_cst_3 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_4 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x32_S800000x288_d1 : Shape.Concatenates [S800000x128, S800000x128, S800000x32] S800000x288 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x288_S288x128_S800000x128_1_0_0_1_n_n_wf : DotDims.WF S800000x288 S288x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x288_S288x128_S800000x128_1_0_0_1_n_n : DotDims S800000x288 S288x128 S800000x128 where
  lhsContracting := [1]
  rhsContracting := [0]
  lhsNonContracting := [0]
  rhsNonContracting := [1]
  lhsBatch := []
  rhsBatch := []
  wf := dot_S800000x288_S288x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result named.

  The program is four stretches in order: host operations, the message region, host operations, the update region. The
  buffer contents at each boundary are a fold from the launch memory: a host stretch applies its operations, a region
  leaves each of its arrays at what its write-backs fold to and every other buffer as it found it. Every weakly fair
  execution terminates without a fault, and the final state holds, at every buffer that outlives the regions, the last
  boundary's contents. Read at the result buffer this names the program's result; read at an argument it gives the
  argument back, since no stretch writes one.
-/
import proofs.«116265_j46334107189561_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRowOps.lean ====
/-
  A block of rows through the operations of a dense layer, read at an entry over the extended reals.

  For a block x of B rows and K lanes, a weight w of K rows and N lanes, and a bias b of N entries:
    * entry (r, k) of a kernel's product x · w accumulated into the zero splat, and of the host's product, is
      Σ_j x[r, j] · w[j, k]                                                         (matmul_entry, dot_entry);
    * the bias recast as a row and broadcast down the rows (the kernel's form), or broadcast to a row and then down the
      rows (the host's form), reads b[k] at (r, k)                                   (bias_rows, bias_rows_host);
    * a scalar constant broadcast to any shape reads the constant                    (scalar_bcast_host);
    * the logistic function, and the host's spelling of y · σ(y) and of σ(y) through negate, exponential, add and divide,
      read entry by entry                                                           (logistic_apply, host_silu_apply, host_sigmoid_apply);
    * the kernel's lane sum of a block, recast as a column, reads Σ_k v[r, k] at (r, 0)   (lane_sum_col);
    * a one-entry vector recast [1, 1] and broadcast to a column reads its entry      (unit_col).
  Each reading re-indexes; none needs finiteness.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«116265_j46334107189561_2_alg».proof.Proof.LibDotRows
import proofs.«116265_j46334107189561_2_alg».proof.Proof.LibColBroadcast
import proofs.«116265_j46334107189561_2_alg».proof.Proof.LibRowReduce

noncomputable section

open scoped BigOperators

namespace Cert.LibRowOps

open Idealize.ShloMosaic Idealize.ShloMosaic.ValueIdx

variable {α : Type} {B K N C : Nat} {φ₁ φ₂ : FTy}

/-- The logistic function of an array reads, at an index, the logistic function of the entry. -/
theorem logistic_apply {s : Shape} {φ : FTy} (v : FVec Ideal s φ) (i : s.Idx) : logistic v i = Ideal.logistic (v i) := rfl

/-- The host's spelling of y · 1 / (1 + e^(-y)) on an array, with the two ones given as arrays that read 1, reads at an
    index y · σ(y) of the entry. -/
theorem host_silu_apply {s : Shape} (y one one' : FVec Ideal s .f32) (i : s.Idx) (h1 : one i = 1) (h1' : one' i = 1) :
    mulf y (Host.divf one' (addf one (Host.exp (Host.negf y)))) i = y i * Ideal.logistic (y i) := by
  show y i * Ideal.div (one' i) (one i + Ideal.exp (-(y i))) = y i * Ideal.div 1 (1 + Ideal.exp (-(y i)))
  rw [h1, h1']

/-- The host's spelling of 1 / (1 + e^(-y)) on an array reads at an index σ of the entry. -/
theorem host_sigmoid_apply {s : Shape} (y one one' : FVec Ideal s .f32) (i : s.Idx) (h1 : one i = 1) (h1' : one' i = 1) :
    Host.divf one' (addf one (Host.exp (Host.negf y))) i = Ideal.logistic (y i) := by
  show Ideal.div (one' i) (one i + Ideal.exp (-(y i))) = Ideal.div 1 (1 + Ideal.exp (-(y i)))
  rw [h1, h1']

/-- Entry (r, k) of a kernel's product into the zero splat, for any record of the plain dimension numbers. -/
theorem matmul_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    matmul (F := Ideal) d none x w (constant ⟨2, ![B, N]⟩ .f32 0x00000000#32) (ix2 r k)
      = ∑ j : Fin K, x (ix2 r j) * w (ix2 j k) := by
  subst hd
  exact Cert.Lib.DotRows.matmul_plain_apply x w r k

/-- Entry (r, k) of the host's product, for any record of the plain dimension numbers. -/
theorem dot_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    Host.dotGeneral (F := Ideal) d none x w (ix2 r k) = ∑ j : Fin K, x (ix2 r j) * w (ix2 j k) := by
  subst hd
  exact Cert.Lib.DotRows.dotGeneral_plain_apply x w r k

/-- A bias vector recast as a row and broadcast down B rows reads its entry k at (r, k). -/
theorem bias_rows (v : (⟨1, ![C]⟩ : Shape).Idx → α) (hc : (⟨1, ![C]⟩ : Shape).ShapeCasts ⟨2, ![1, C]⟩)
    (hb : (⟨2, ![1, C]⟩ : Shape).Broadcasts ⟨2, ![B, C]⟩) (r : Fin B) (k : Fin C) :
    broadcastTo ⟨2, ![B, C]⟩ (shapeCast ⟨2, ![1, C]⟩ v hc) hb (ix2 r k) = v (ix1 k) :=
  (broadcastTo_1b_ab_apply _ hb r k).trans (shapeCast_a_1a_apply v hc 0 k)

/-- A bias vector broadcast to a row and then down B rows (the host's two broadcasts) reads its entry k at (r, k). -/
theorem bias_rows_host (v : (⟨1, ![C]⟩ : Shape).Idx → α)
    (h0 : (⟨1, ![C]⟩ : Shape).BroadcastsInDim ⟨2, ![1, C]⟩ (![1] : Fin 1 → Fin 2))
    (h1 : (⟨2, ![1, C]⟩ : Shape).BroadcastsInDim ⟨2, ![B, C]⟩ (![0, 1] : Fin 2 → Fin 2)) (r : Fin B) (k : Fin C) :
    broadcastInDim ⟨2, ![B, C]⟩ ![0, 1] h1 (broadcastInDim ⟨2, ![1, C]⟩ ![1] h0 v) (ix2 r k) = v (ix1 k) := by
  have e1 : broadcastInDim ⟨2, ![B, C]⟩ ![0, 1] h1 (broadcastInDim ⟨2, ![1, C]⟩ ![1] h0 v) (ix2 r k)
      = broadcastInDim ⟨2, ![1, C]⟩ ![1] h0 v (ix2 (0 : Fin 1) k) :=
    broadcastInDim_apply _ h1 _ (ix2 r k) (ix2 (0 : Fin 1) k) fun a => by
      match a with
      | ⟨0, _⟩ => rfl
      | ⟨1, _⟩ =>
        show k.val = if C = 1 then 0 else k.val
        split
        · have := k.isLt; omega
        · rfl
  have e2 : broadcastInDim ⟨2, ![1, C]⟩ ![1] h0 v (ix2 (0 : Fin 1) k) = v (ix1 k) :=
    broadcastInDim_apply _ h0 v (ix2 (0 : Fin 1) k) (ix1 k) fun a => by
      match a with
      | ⟨0, _⟩ =>
        show k.val = if C = 1 then 0 else k.val
        split
        · have := k.isLt; omega
        · rfl
  exact e1.trans e2

/-- A scalar broadcast to any shape (the host's form) reads the scalar. -/
theorem scalar_bcast_host {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun a => a.elim0

/-- The kernel's lane sum of a block, recast as a column, reads the row's sum at (r, 0). -/
theorem lane_sum_col (v : FVec Ideal ⟨2, ![B, C]⟩ .f32)
    (h : (⟨2, ![B, C]⟩ : Shape).Reduces [1] (⟨1, ![B]⟩ : Shape)) (hφ : FKind.Formats .f32)
    (hacc : (0x00000000#32 : BitVec 32) = FKind.add.neutral .f32 hφ)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  (Cert.LibRowReduce.shapeCast_col_apply _ hc r).trans (Cert.LibRowReduce.multiReduction_add_row v h hφ hacc r)

/-- The same with the accumulator's neutrality stated on the words themselves (zero is zero), whatever proof of the
    format's admissibility the reduction carries. -/
theorem lane_sum_col_zero (v : FVec Ideal ⟨2, ![B, C]⟩ .f32)
    (h : (⟨2, ![B, C]⟩ : Shape).Reduces [1] (⟨1, ![B]⟩ : Shape)) (hφ : FKind.Formats .f32)
    (hacc : (0x00000000#32 : BitVec 32) = 0x00000000#32)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  lane_sum_col v h hφ hacc hc r

/-- A one-entry vector recast [1, 1] and broadcast to a column of B rows reads its entry at (r, 0). -/
theorem unit_col (v : (⟨1, ![1]⟩ : Shape).Idx → α) (hc : (⟨1, ![1]⟩ : Shape).ShapeCasts ⟨2, ![1, 1]⟩)
    (hb : (⟨2, ![1, 1]⟩ : Shape).Broadcasts ⟨2, ![B, 1]⟩) (r : Fin B) :
    broadcastTo ⟨2, ![B, 1]⟩ (shapeCast ⟨2, ![1, 1]⟩ v hc) hb (ix2 r (0 : Fin 1)) = v (ix1 (0 : Fin 1)) :=
  (broadcastTo_1b_ab_apply _ hb r (0 : Fin 1)).trans (shapeCast_a_1a_apply v hc 0 0)

/-- A one-entry vector broadcast to [1, 1] and then to a column of B rows (the host's form) reads its entry. -/
theorem unit_col_host (v : (⟨1, ![1]⟩ : Shape).Idx → α)
    (h0 : (⟨1, ![1]⟩ : Shape).BroadcastsInDim ⟨2, ![1, 1]⟩ (![1] : Fin 1 → Fin 2))
    (h1 : (⟨2, ![1, 1]⟩ : Shape).BroadcastsInDim ⟨2, ![B, 1]⟩ (![0, 1] : Fin 2 → Fin 2)) (r : Fin B) :
    broadcastInDim ⟨2, ![B, 1]⟩ ![0, 1] h1 (broadcastInDim ⟨2, ![1, 1]⟩ ![1] h0 v) (ix2 r (0 : Fin 1)) = v (ix1 (0 : Fin 1)) :=
  bias_rows_host v h0 h1 r 0

/-- A column broadcast across C lanes (the host's form) reads the column's entry of the row. -/
theorem col_bcast_host (v : (⟨2, ![B, 1]⟩ : Shape).Idx → α)
    (h : (⟨2, ![B, 1]⟩ : Shape).BroadcastsInDim ⟨2, ![B, C]⟩ (![0, 1] : Fin 2 → Fin 2)) (r : Fin B) (k : Fin C) :
    broadcastInDim ⟨2, ![B, C]⟩ ![0, 1] h v (ix2 r k) = v (ix2 r (0 : Fin 1)) :=
  broadcastInDim_apply _ h v (ix2 r k) (ix2 r (0 : Fin 1)) fun a => by
    match a with
    | ⟨0, _⟩ =>
      show r.val = if B = 1 then 0 else r.val
      split
      · have := r.isLt; omega
      · rfl
    | ⟨1, _⟩ => rfl

end Cert.LibRowOps

end
-- ==== Proof.RowSpec.lean ====
/-
  One edge's message and one node's update, as functions of rows.

  The layer sends along every edge e a gated message. With xs and xr the feature rows of the edge's two endpoints and iv
  its row of invariants (128, 128 and 32 entries), and with silu(y) = y · σ(y), σ(y) = 1 / (1 + e^(-y)):
      hid[k]   = silu( Σ_j xs[j]·ws[j,k] + Σ_j xr[j]·wr[j,k] + Σ_j iv[j]·wi[j,k] + b1[k] )
      msg[k]   = silu( Σ_j hid[j]·w2[j,k] + b2[k] )
      gate     = σ( Σ_k msg[k]·we[k] + be )
      gated[k] = msg[k] · gate.
  Every node then takes its own row x and the row ag of messages summed into it to
      upd[k]   = x[k] + ( Σ_j silu( Σ_i x[i]·wx[i,j] + Σ_i ag[i]·wa[i,j] + c1[j] ) · v2[j,k] + c2[k] ).
  All of this is over the extended reals, where + and · are those of a commutative monoid each: the only law used below is
  that a finite sum may be cut into consecutive stretches, which regroups terms and asks nothing about finiteness.
-/
import Mathlib
import Idealize.ShloMosaic.PureOps.Ideal

noncomputable section

open scoped BigOperators

namespace Cert.RowSpec

open Idealize.ShloMosaic

/-- y · σ(y), with σ the logistic function of the extended reals. -/
def silu (y : EReal) : EReal := y * Ideal.logistic y

/-- The hidden row of an edge: the three partial products added left to right, then the bias, then silu. -/
def hid (xs xr : Fin 128 → EReal) (iv : Fin 32 → EReal) (ws wr : Fin 128 → Fin 128 → EReal) (wi : Fin 32 → Fin 128 → EReal)
    (b1 : Fin 128 → EReal) (k : Fin 128) : EReal :=
  silu ((((∑ j, xs j * ws j k) + (∑ j, xr j * wr j k)) + (∑ j, iv j * wi j k)) + b1 k)

/-- A row through a 128 × 128 linear map, a bias and silu. -/
def msg (h : Fin 128 → EReal) (w2 : Fin 128 → Fin 128 → EReal) (b2 : Fin 128 → EReal) (k : Fin 128) : EReal :=
  silu ((∑ j, h j * w2 j k) + b2 k)

/-- The gate of a message row: the logistic function of its projection on we, shifted by be. -/
def gate (g : Fin 128 → EReal) (we : Fin 128 → EReal) (be : EReal) : EReal :=
  Ideal.logistic ((∑ k, g k * we k) + be)

/-- The gated message of an edge. -/
def gated (xs xr : Fin 128 → EReal) (iv : Fin 32 → EReal) (ws wr : Fin 128 → Fin 128 → EReal) (wi : Fin 32 → Fin 128 → EReal)
    (b1 : Fin 128 → EReal) (w2 : Fin 128 → Fin 128 → EReal) (b2 : Fin 128 → EReal) (we : Fin 128 → EReal) (be : EReal)
    (k : Fin 128) : EReal :=
  msg (hid xs xr iv ws wr wi b1) w2 b2 k * gate (msg (hid xs xr iv ws wr wi b1) w2 b2) we be

/-- The hidden row of a node's update. -/
def uhid (x ag : Fin 128 → EReal) (wx wa : Fin 128 → Fin 128 → EReal) (c1 : Fin 128 → EReal) (j : Fin 128) : EReal :=
  silu (((∑ i, x i * wx i j) + (∑ i, ag i * wa i j)) + c1 j)

/-- The updated row of a node: its own row plus the update network's output. -/
def upd (x ag : Fin 128 → EReal) (wx wa : Fin 128 → Fin 128 → EReal) (c1 : Fin 128 → EReal) (v2 : Fin 128 → Fin 128 → EReal)
    (c2 : Fin 128 → EReal) (k : Fin 128) : EReal :=
  x k + ((∑ j, uhid x ag wx wa c1 j * v2 j k) + c2 k)

/-- A sum over w = n₁ + n₂ + n₃ consecutive positions is the sum of the sums over the three stretches. -/
theorem sum_cut3 {M : Type*} [AddCommMonoid M] {n₁ n₂ n₃ w : Nat} (hw : w = n₁ + n₂ + n₃) (f : Fin w → M) :
    ∑ l : Fin w, f l
      = ((∑ j : Fin n₁, f ⟨j.val, by have := j.isLt; omega⟩) + (∑ j : Fin n₂, f ⟨n₁ + j.val, by have := j.isLt; omega⟩))
        + (∑ j : Fin n₃, f ⟨n₁ + n₂ + j.val, by have := j.isLt; omega⟩) := by
  subst hw
  rw [Fin.sum_univ_add, Fin.sum_univ_add]
  rfl

/-- A sum over w = n₁ + n₂ consecutive positions is the sum of the sums over the two stretches. -/
theorem sum_cut2 {M : Type*} [AddCommMonoid M] {n₁ n₂ w : Nat} (hw : w = n₁ + n₂) (f : Fin w → M) :
    ∑ l : Fin w, f l
      = (∑ j : Fin n₁, f ⟨j.val, by have := j.isLt; omega⟩) + (∑ j : Fin n₂, f ⟨n₁ + j.val, by have := j.isLt; omega⟩) := by
  subst hw
  rw [Fin.sum_univ_add]
  rfl

/-- A sum over 288 = 128 + 128 + 32 positions, cut. -/
theorem sum_split3 {M : Type*} [AddCommMonoid M] (f : Fin 288 → M) :
    ∑ l : Fin 288, f l
      = ((∑ j : Fin 128, f ⟨j.val, by have := j.isLt; omega⟩) + (∑ j : Fin 128, f ⟨128 + j.val, by have := j.isLt; omega⟩))
        + (∑ j : Fin 32, f ⟨128 + 128 + j.val, by have := j.isLt; omega⟩) :=
  sum_cut3 (n₁ := 128) (n₂ := 128) (n₃ := 32) rfl f

/-- A sum over 256 = 128 + 128 positions, cut. -/
theorem sum_split2 {M : Type*} [AddCommMonoid M] (f : Fin 256 → M) :
    ∑ l : Fin 256, f l
      = (∑ j : Fin 128, f ⟨j.val, by have := j.isLt; omega⟩) + (∑ j : Fin 128, f ⟨128 + j.val, by have := j.isLt; omega⟩) :=
  sum_cut2 (n₁ := 128) (n₂ := 128) rfl f

end Cert.RowSpec

end
-- ==== Proof.KerMessage.lean ====
/-
  What the message kernel's body stores, entry by entry.

  At one grid point the body holds a block of 8000 edges: the rows xs, xr (128 lanes) and iv (32 lanes) of those edges,
  and the whole of the weights. Row r of what it stores depends on row r of xs, xr and iv alone: it is the gated message
  of that edge (RowSpec.gated). The three partial products of the first layer are added left to right, the bias is added
  last; the gate's projection is a lane sum of msg · we.
-/
import proofs.«116265_j46334107189561_2_alg».proof.Proof.Gen.KernelIdeal.Skeleton
import proofs.«116265_j46334107189561_2_alg».proof.Proof.LibRowOps
import proofs.«116265_j46334107189561_2_alg».proof.Proof.RowSpec

noncomputable section

open scoped BigOperators

namespace Cert.KernelIdeal.Payload

open Cert.KernelIdeal Cert.KernelIdeal.Gen Idealize.ShloMosaic Idealize.ShloMosaic.ValueIdx Cert.RowSpec

/-- The message row before gating, at row r and lane k of the block. -/
theorem msg_entry (x0 x1 : FVec Ideal S8000x128 .bf16) (x2 : FVec Ideal S8000x32 .bf16) (x3 x4 : FVec Ideal S128x128 .bf16)
    (x5 : FVec Ideal S32x128 .bf16) (x6 : FVec Ideal S128 .f32) (x7 : FVec Ideal S128x128 .bf16) (x8 : FVec Ideal S128 .f32)
    (r : Fin 8000) (k : Fin 128) :
    k0_pay2 (F := Ideal) x0 x1 x2 x3 x4 x5 x6 x7 x8 (ix2 r k)
      = msg (hid (fun j => x0 (ix2 r j)) (fun j => x1 (ix2 r j)) (fun j => x2 (ix2 r j)) (fun j q => x3 (ix2 j q))
          (fun j q => x4 (ix2 j q)) (fun j q => x5 (ix2 j q)) (fun q => x6 (ix1 q)))
          (fun j q => x7 (ix2 j q)) (fun q => x8 (ix1 q)) k := by
  simp only [k0_pay2, msg, hid, silu, mulf_apply, addf_apply, truncf_apply, shapeCast_self, Cert.LibRowOps.logistic_apply,
    Cert.LibRowOps.matmul_entry dot_S8000x128_S128x128_S8000x128_1_0_0_1_n_n rfl,
    Cert.LibRowOps.matmul_entry dot_S8000x32_S32x128_S8000x128_1_0_0_1_n_n rfl,
    Cert.LibRowOps.bias_rows]

/-- The gating step alone: from the message rows v32 and their products v36 with the gate's weight, the stored entry
    (r, k) is v32[r, k] times the logistic function of row r's lane sum of v36 plus the gate's bias. -/
theorem gating_entry (v32 v36 : FVec Ideal S8000x128 .f32) (v39 : FVec Ideal S1 .f32) (r : Fin 8000) (k : Fin 128) :
    k0_pay1 (F := Ideal) v32 v36 v39 (ix2 r k)
      = v32 (ix2 r k) * Ideal.logistic ((∑ q : Fin 128, v36 (ix2 r q)) + v39 (ix1 (0 : Fin 1))) := by
  refine (congrArg (fun z => v32 (ix2 r k) * z) (Cert.LibColBroadcast.broadcastTo_a1_ab_apply _ _ r k)).trans ?_
  refine congrArg (fun z => v32 (ix2 r k) * Ideal.logistic z) ?_
  exact congrArg₂ (· + ·) (Cert.LibRowOps.lane_sum_col_zero _ _ _ _ _ r) (Cert.LibRowOps.unit_col _ _ _ r)

/-- What the body stores, at row r and lane k of the block: the gated message of the block's edge r. -/
theorem stored_entry (x0 x1 : FVec Ideal S8000x128 .bf16) (x2 : FVec Ideal S8000x32 .bf16) (x3 x4 : FVec Ideal S128x128 .bf16)
    (x5 : FVec Ideal S32x128 .bf16) (x6 : FVec Ideal S128 .f32) (x7 : FVec Ideal S128x128 .bf16) (x8 : FVec Ideal S128 .f32)
    (x9 : FVec Ideal S1x128 .f32) (x10 : FVec Ideal S1 .f32) (r : Fin 8000) (k : Fin 128) :
    k0_pay1 (F := Ideal) (k0_pay2 x0 x1 x2 x3 x4 x5 x6 x7 x8) (k0_pay3 x0 x1 x2 x3 x4 x5 x6 x7 x8 x9) x10 (ix2 r k)
      = gated (fun j => x0 (ix2 r j)) (fun j => x1 (ix2 r j)) (fun j => x2 (ix2 r j)) (fun j q => x3 (ix2 j q))
          (fun j q => x4 (ix2 j q)) (fun j q => x5 (ix2 j q)) (fun q => x6 (ix1 q))
          (fun j q => x7 (ix2 j q)) (fun q => x8 (ix1 q)) (fun q => x9 (ix2 (0 : Fin 1) q)) (x10 (ix1 (0 : Fin 1))) k := by
  rw [gating_entry]
  simp only [k0_pay3, gated, gate, mulf_apply, shapeCast_self, broadcastTo_1b_ab_apply, msg_entry]

/-- The same, for any rows and weights the block's entries are known to be. -/
theorem stored_entry_of (x0 x1 : FVec Ideal S8000x128 .bf16) (x2 : FVec Ideal S8000x32 .bf16) (x3 x4 : FVec Ideal S128x128 .bf16)
    (x5 : FVec Ideal S32x128 .bf16) (x6 : FVec Ideal S128 .f32) (x7 : FVec Ideal S128x128 .bf16) (x8 : FVec Ideal S128 .f32)
    (x9 : FVec Ideal S1x128 .f32) (x10 : FVec Ideal S1 .f32) (r : Fin 8000) (k : Fin 128)
    (xs xr : Fin 128 → EReal) (iv : Fin 32 → EReal) (ws wr : Fin 128 → Fin 128 → EReal) (wi : Fin 32 → Fin 128 → EReal)
    (b1 : Fin 128 → EReal) (w2 : Fin 128 → Fin 128 → EReal) (b2 : Fin 128 → EReal) (we : Fin 128 → EReal) (be : EReal)
    (h0 : ∀ j, x0 (ix2 r j) = xs j) (h1 : ∀ j, x1 (ix2 r j) = xr j) (h2 : ∀ j, x2 (ix2 r j) = iv j)
    (h3 : ∀ j q, x3 (ix2 j q) = ws j q) (h4 : ∀ j q, x4 (ix2 j q) = wr j q) (h5 : ∀ j q, x5 (ix2 j q) = wi j q)
    (h6 : ∀ q, x6 (ix1 q) = b1 q) (h7 : ∀ j q, x7 (ix2 j q) = w2 j q) (h8 : ∀ q, x8 (ix1 q) = b2 q)
    (h9 : ∀ q, x9 (ix2 (0 : Fin 1) q) = we q) (h10 : x10 (ix1 (0 : Fin 1)) = be) :
    k0_pay1 (F := Ideal) (k0_pay2 x0 x1 x2 x3 x4 x5 x6 x7 x8) (k0_pay3 x0 x1 x2 x3 x4 x5 x6 x7 x8 x9) x10 (ix2 r k)
      = gated xs xr iv ws wr wi b1 w2 b2 we be k := by
  rw [stored_entry, h10, (funext h0 : (fun j => x0 (ix2 r j)) = xs), (funext h1 : (fun j => x1 (ix2 r j)) = xr),
    (funext h2 : (fun j => x2 (ix2 r j)) = iv), (funext fun j => funext (h3 j) : (fun j q => x3 (ix2 j q)) = ws),
    (funext fun j => funext (h4 j) : (fun j q => x4 (ix2 j q)) = wr), (funext fun j => funext (h5 j) : (fun j q => x5 (ix2 j q)) = wi),
    (funext h6 : (fun q => x6 (ix1 q)) = b1), (funext fun j => funext (h7 j) : (fun j q => x7 (ix2 j q)) = w2),
    (funext h8 : (fun q => x8 (ix1 q)) = b2), (funext h9 : (fun q => x9 (ix2 (0 : Fin 1) q)) = we)]

end Cert.KernelIdeal.Payload

end
-- ==== Proof.LayerSpec.lean ====
/-
  The layer as two whole-array functions.

  edgeMsgs takes the gathered endpoint rows XS, XR (800000 × 128), the invariants IV (800000 × 32) and the message
  network's weights to the array of gated messages: row e is RowSpec.gated of row e of XS, XR and IV. nodeUpd takes the
  node features X and the summed messages AG (50000 × 128 each) and the update network's weights to the updated
  features: row n is RowSpec.upd of row n of X and AG. Both are defined entry by entry, so a row of the result depends on
  the same row of the row-wise operands and on nothing else.

  The first layer's weight W1 (288 × 128) acts on the concatenation [xs | xr | iv]: its rows 0 … 127 meet xs, rows
  128 … 255 meet xr and rows 256 … 287 meet iv (rowsTop, rowsMid, rowsLow). The update network's first weight
  (256 × 128) splits the same way in two (rowsTop2, rowsLow2).
-/
import Mathlib
import Idealize.ShloMosaic.PureOps.Ideal
import Idealize.ShloMosaic.Lib.ValueIdx
import proofs.«116265_j46334107189561_2_alg».proof.Proof.RowSpec

noncomputable section

open scoped BigOperators

namespace Cert.LayerSpec

open Idealize.ShloMosaic Idealize.ShloMosaic.ValueIdx Cert.RowSpec

/-- Rows 0 … 127 of a 288 × 128 weight. -/
def rowsTop (W : (⟨2, ![288, 128]⟩ : Shape).Idx → EReal) : Fin 128 → Fin 128 → EReal :=
  fun j q => W (ix2 (⟨j.val, by have := j.isLt; omega⟩ : Fin 288) q)
/-- Rows 128 … 255 of a 288 × 128 weight. -/
def rowsMid (W : (⟨2, ![288, 128]⟩ : Shape).Idx → EReal) : Fin 128 → Fin 128 → EReal :=
  fun j q => W (ix2 (⟨128 + j.val, by have := j.isLt; omega⟩ : Fin 288) q)
/-- Rows 256 … 287 of a 288 × 128 weight. -/
def rowsLow (W : (⟨2, ![288, 128]⟩ : Shape).Idx → EReal) : Fin 32 → Fin 128 → EReal :=
  fun j q => W (ix2 (⟨128 + 128 + j.val, by have := j.isLt; omega⟩ : Fin 288) q)
/-- Rows 0 … 127 of a 256 × 128 weight. -/
def rowsTop2 (W : (⟨2, ![256, 128]⟩ : Shape).Idx → EReal) : Fin 128 → Fin 128 → EReal :=
  fun j q => W (ix2 (⟨j.val, by have := j.isLt; omega⟩ : Fin 256) q)
/-- Rows 128 … 255 of a 256 × 128 weight. -/
def rowsLow2 (W : (⟨2, ![256, 128]⟩ : Shape).Idx → EReal) : Fin 128 → Fin 128 → EReal :=
  fun j q => W (ix2 (⟨128 + j.val, by have := j.isLt; omega⟩ : Fin 256) q)
/-- A 128 × 128 weight as a function of row and lane. -/
def sqW (W : (⟨2, ![128, 128]⟩ : Shape).Idx → EReal) : Fin 128 → Fin 128 → EReal := fun j q => W (ix2 j q)
/-- A bias of 128 entries as a function of the lane. -/
def vecB (b : (⟨1, ![128]⟩ : Shape).Idx → EReal) : Fin 128 → EReal := fun q => b (ix1 q)
/-- A 128 × 1 weight as a function of its row. -/
def colW (W : (⟨2, ![128, 1]⟩ : Shape).Idx → EReal) : Fin 128 → EReal := fun q => W (ix2 q (0 : Fin 1))

/-- The gated messages of all edges. -/
def edgeMsgs (XS XR : (⟨2, ![800000, 128]⟩ : Shape).Idx → EReal) (IV : (⟨2, ![800000, 32]⟩ : Shape).Idx → EReal)
    (ws wr : Fin 128 → Fin 128 → EReal) (wi : Fin 32 → Fin 128 → EReal) (b1 : Fin 128 → EReal)
    (w2 : Fin 128 → Fin 128 → EReal) (b2 : Fin 128 → EReal) (we : Fin 128 → EReal) (be : EReal) :
    (⟨2, ![800000, 128]⟩ : Shape).Idx → EReal :=
  fun i => gated (fun j => XS (ix2 (n0 := 800000) (i 0) j)) (fun j => XR (ix2 (n0 := 800000) (i 0) j))
    (fun j => IV (ix2 (n0 := 800000) (i 0) j)) ws wr wi b1 w2 b2 we be (i 1)

theorem edgeMsgs_apply (XS XR : (⟨2, ![800000, 128]⟩ : Shape).Idx → EReal) (IV : (⟨2, ![800000, 32]⟩ : Shape).Idx → EReal)
    (ws wr : Fin 128 → Fin 128 → EReal) (wi : Fin 32 → Fin 128 → EReal) (b1 : Fin 128 → EReal)
    (w2 : Fin 128 → Fin 128 → EReal) (b2 : Fin 128 → EReal) (we : Fin 128 → EReal) (be : EReal) (e : Fin 800000) (k : Fin 128) :
    edgeMsgs XS XR IV ws wr wi b1 w2 b2 we be (ix2 e k)
      = gated (fun j => XS (ix2 e j)) (fun j => XR (ix2 e j)) (fun j => IV (ix2 e j)) ws wr wi b1 w2 b2 we be k := rfl

/-- The updated features of all nodes. -/
def nodeUpd (X AG : (⟨2, ![50000, 128]⟩ : Shape).Idx → EReal) (wx wa : Fin 128 → Fin 128 → EReal) (c1 : Fin 128 → EReal)
    (v2 : Fin 128 → Fin 128 → EReal) (c2 : Fin 128 → EReal) : (⟨2, ![50000, 128]⟩ : Shape).Idx → EReal :=
  fun i => upd (fun j => X (ix2 (n0 := 50000) (i 0) j)) (fun j => AG (ix2 (n0 := 50000) (i 0) j)) wx wa c1 v2 c2 (i 1)

theorem nodeUpd_apply (X AG : (⟨2, ![50000, 128]⟩ : Shape).Idx → EReal) (wx wa : Fin 128 → Fin 128 → EReal) (c1 : Fin 128 → EReal)
    (v2 : Fin 128 → Fin 128 → EReal) (c2 : Fin 128 → EReal) (n : Fin 50000) (k : Fin 128) :
    nodeUpd X AG wx wa c1 v2 c2 (ix2 n k)
      = upd (fun j => X (ix2 n j)) (fun j => AG (ix2 n j)) wx wa c1 v2 c2 k := rfl

end Cert.LayerSpec

end
-- ==== Proof.BlocksMessage.lean ====
/-
  The message region's output array, from its blocks.

  The region runs 100 grid points; point t stages rows 8000 t … 8000 t + 7999 of the three edge arrays and the whole of
  every weight, and writes back rows 8000 t … 8000 t + 7999 of the output. What point t writes back is therefore block t
  of ONE function of the arrays the region finds: the layer's edge messages. The 100 blocks tile the 800000 rows (row i
  lies in block i / 8000), so after the region the output array is that function.
-/
import proofs.«116265_j46334107189561_2_alg».proof.Proof.Gen.KernelIdeal.Frame
import proofs.«116265_j46334107189561_2_alg».proof.Proof.KerMessage
import proofs.«116265_j46334107189561_2_alg».proof.Proof.LayerSpec
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.RowSpec Cert.LayerSpec Cert.KernelIdeal.Payload
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a window that moves with the grid has block index t on axis 0, every other
    block index is 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = t.val
    ∧ win0_11.index t (1 : Fin 2) = 0 :=
  (by decide +kernel : ∀ t : Fin grid0.N, _)

/-- Window 0's block at point t, row r, is row t · 8000 + r of its array. -/
theorem blk0_0 (c : Dev nD) (t : Fin cfg0.N) (r : Fin 8000) (j : Fin 128) (e : Fin 800000)
    (he : e.val = t.val * 8000 + r.val) :
    iblk0 V c 0 t (ix2 r j) = V c main_v12 (ix2 e j) := by
  show V c main_v12 (((cfg0.win 0).blk t).view.emb (ix2 r j)) = _
  refine congrArg (V c main_v12) ?_
  have hf := idx_facts0 t
  funext a; apply Fin.ext
  match a with
  | ⟨0, _⟩ => show win0_0.index t (0 : Fin 2) * 8000 + 1 * r.val = e.val; omega
  | ⟨1, _⟩ => show win0_0.index t (1 : Fin 2) * 128 + 1 * j.val = j.val; omega

/-- Window 1's block at point t, row r, is row t · 8000 + r of its array. -/
theorem blk0_1 (c : Dev nD) (t : Fin cfg0.N) (r : Fin 8000) (j : Fin 128) (e : Fin 800000)
    (he : e.val = t.val * 8000 + r.val) :
    iblk0 V c 1 t (ix2 r j) = V c main_v19 (ix2 e j) := by
  show V c main_v19 (((cfg0.win 1).blk t).view.emb (ix2 r j)) = _
  refine congrArg (V c main_v19) ?_
  have hf := idx_facts0 t
  funext a; apply Fin.ext
  match a with
  | ⟨0, _⟩ => show win0_1.index t (0 : Fin 2) * 8000 + 1 * r.val = e.val; omega
  | ⟨1, _⟩ => show win0_1.index t (1 : Fin 2) * 128 + 1 * j.val = j.val; omega

/-- Window 2's block at point t, row r, is row t · 8000 + r of its array. -/
theorem blk0_2 (c : Dev nD) (t : Fin cfg0.N) (r : Fin 8000) (j : Fin 32) (e : Fin 800000)
    (he : e.val = t.val * 8000 + r.val) :
    iblk0 V c 2 t (ix2 r j) = V c main_v5 (ix2 e j) := by
  show V c main_v5 (((cfg0.win 2).blk t).view.emb (ix2 r j)) = _
  refine congrArg (V c main_v5) ?_
  have hf := idx_facts0 t
  funext a; apply Fin.ext
  match a with
  | ⟨0, _⟩ => show win0_2.index t (0 : Fin 2) * 8000 + 1 * r.val = e.val; omega
  | ⟨1, _⟩ => show win0_2.index t (1 : Fin 2) * 32 + 1 * j.val = j.val; omega

/-- Window 3's block at every point is its whole array. -/
theorem blk0_3 (c : Dev nD) (t : Fin cfg0.N) (j : Fin 128) (q : Fin 128) :
    iblk0 V c 3 t (ix2 j q) = V c main_v21 (ix2 j q) := by
  show V c main_v21 (((cfg0.win 3).blk t).view.emb (ix2 j q)) = _
  refine congrArg (V c main_v21) ?_
  have hf := idx_facts0 t
  funext a; apply Fin.ext
  match a with
  | ⟨0, _⟩ => show win0_3.index t (0 : Fin 2) * 128 + 1 * j.val = j.val; omega
  | ⟨1, _⟩ => show win0_3.index t (1 : Fin 2) * 128 + 1 * q.val = q.val; omega

/-- Window 4's block at every point is its whole array. -/
theorem blk0_4 (c : Dev nD) (t : Fin cfg0.N) (j : Fin 128) (q : Fin 128) :
    iblk0 V c 4 t (ix2 j q) = V c main_v23 (ix2 j q) := by
  show V c main_v23 (((cfg0.win 4).blk t).view.emb (ix2 j q)) = _
  refine congrArg (V c main_v23) ?_
  have hf := idx_facts0 t
  funext a; apply Fin.ext
  match a with
  | ⟨0, _⟩ => show win0_4.index t (0 : Fin 2) * 128 + 1 * j.val = j.val; omega
  | ⟨1, _⟩ => show win0_4.index t (1 : Fin 2) * 128 + 1 * q.val = q.val; omega

/-- Window 5's block at every point is its whole array. -/
theorem blk0_5 (c : Dev nD) (t : Fin cfg0.N) (j : Fin 32) (q : Fin 128) :
    iblk0 V c 5 t (ix2 j q) = V c main_v25 (ix2 j q) := by
  show V c main_v25 (((cfg0.win 5).blk t).view.emb (ix2 j q)) = _
  refine congrArg (V c main_v25) ?_
  have hf := idx_facts0 t
  funext a; apply Fin.ext
  match a with
  | ⟨0, _⟩ => show win0_5.index t (0 : Fin 2) * 32 + 1 * j.val = j.val; omega
  | ⟨1, _⟩ => show win0_5.index t (1 : Fin 2) * 128 + 1 * q.val = q.val; omega

/-- Window 6's block at every point is its whole array. -/
theorem blk0_6 (c : Dev nD) (t : Fin cfg0.N) (q : Fin 128) :
    iblk0 V c 6 t (ix1 q) = V c main_arg4 (ix1 q) := by
  show V c main_arg4 (((cfg0.win 6).blk t).view.emb (ix1 q)) = _
  refine congrArg (V c main_arg4) ?_
  have hf := idx_facts0 t
  funext a; apply Fin.ext
  match a with
  | ⟨0, _⟩ => show win0_6.index t (0 : Fin 1) * 128 + 1 * q.val = q.val; omega

/-- Window 7's block at every point is its whole array. -/
theorem blk0_7 (c : Dev nD) (t : Fin cfg0.N) (j : Fin 128) (q : Fin 128) :
    iblk0 V c 7 t (ix2 j q) = V c main_v26 (ix2 j q) := by
  show V c main_v26 (((cfg0.win 7).blk t).view.emb (ix2 j q)) = _
  refine congrArg (V c main_v26) ?_
  have hf := idx_facts0 t
  funext a; apply Fin.ext
  match a with
  | ⟨0, _⟩ => show win0_7.index t (0 : Fin 2) * 128 + 1 * j.val = j.val; omega
  | ⟨1, _⟩ => show win0_7.index t (1 : Fin 2) * 128 + 1 * q.val = q.val; omega

/-- Window 8's block at every point is its whole array. -/
theorem blk0_8 (c : Dev nD) (t : Fin cfg0.N) (q : Fin 128) :
    iblk0 V c 8 t (ix1 q) = V c main_arg6 (ix1 q) := by
  show V c main_arg6 (((cfg0.win 8).blk t).view.emb (ix1 q)) = _
  refine congrArg (V c main_arg6) ?_
  have hf := idx_facts0 t
  funext a; apply Fin.ext
  match a with
  | ⟨0, _⟩ => show win0_8.index t (0 : Fin 1) * 128 + 1 * q.val = q.val; omega

/-- Window 9's block at every point is its whole array. -/
theorem blk0_9 (c : Dev nD) (t : Fin cfg0.N) (j : Fin 1) (q : Fin 128) :
    iblk0 V c 9 t (ix2 j q) = V c main_v27 (ix2 j q) := by
  show V c main_v27 (((cfg0.win 9).blk t).view.emb (ix2 j q)) = _
  refine congrArg (V c main_v27) ?_
  have hf := idx_facts0 t
  funext a; apply Fin.ext
  match a with
  | ⟨0, _⟩ => show win0_9.index t (0 : Fin 2) * 1 + 1 * j.val = j.val; omega
  | ⟨1, _⟩ => show win0_9.index t (1 : Fin 2) * 128 + 1 * q.val = q.val; omega

/-- Window 10's block at every point is its whole array. -/
theorem blk0_10 (c : Dev nD) (t : Fin cfg0.N) (q : Fin 1) :
    iblk0 V c 10 t (ix1 q) = V c main_arg8 (ix1 q) := by
  show V c main_arg8 (((cfg0.win 10).blk t).view.emb (ix1 q)) = _
  refine congrArg (V c main_arg8) ?_
  have hf := idx_facts0 t
  funext a; apply Fin.ext
  match a with
  | ⟨0, _⟩ => show win0_10.index t (0 : Fin 1) * 1 + 1 * q.val = q.val; omega

/-- The edge messages of the arrays the region finds. -/
def msgs (c : Dev nD) : S800000x128.Idx → Elt Ideal .bf16 :=
  edgeMsgs (V c main_v12) (V c main_v19) (V c main_v5) (sqW (V c main_v21)) (sqW (V c main_v23))
    (fun j q => V c main_v25 (ix2 j q)) (vecB (V c main_arg4)) (sqW (V c main_v26)) (vecB (V c main_arg6))
    (fun q => V c main_v27 (ix2 (0 : Fin 1) q)) (V c main_arg8 (ix1 (0 : Fin 1)))

/-- What point t writes back is block t of the edge messages. -/
theorem flushed0_eq (c : Dev nD) (t : Fin cfg0.N) :
    (dat0 (F := Ideal) V c).flushed 11 t = ((cfg0.win 11).blk t).view.read (Elt Ideal) (msgs V c) := by
  show (cfg0.win 11).cut (grid0.coords t) ((dat0 (F := Ideal) V c).after 11 t) = _
  rw [after0_11]
  unfold out0_11
  rw [View.canon_unit_zero hz2]
  simp only [View.ld_unit_zero (S := S8000x128) hz2, View.ld_unit_zero (S := S8000x32) hz2, View.ld_unit_zero (S := S128x128) hz2,
    View.ld_unit_zero (S := S32x128) hz2, View.ld_unit_zero (S := S128) hz1, View.ld_unit_zero (S := S1x128) hz2,
    View.ld_unit_zero (S := S1) hz1]
  funext y
  obtain ⟨r, k, rfl⟩ : ∃ (r : Fin 8000) (k : Fin 128), y = ix2 r k := ⟨y 0, y 1, eq_ix2 y⟩
  have hf := idx_facts0 t
  have ht : t.val < 100 := by have := t.isLt; have hN : cfg0.N = 100 := N_0; omega
  have hidx : ((cfg0.win 11).blk t).view.emb (ix2 r k) = ix2 (⟨t.val * 8000 + r.val, by have := r.isLt; omega⟩ : Fin 800000) k := by
    funext a; apply Fin.ext
    match a with
    | ⟨0, _⟩ => show win0_11.index t (0 : Fin 2) * 8000 + 1 * r.val = t.val * 8000 + r.val; omega
    | ⟨1, _⟩ => show win0_11.index t (1 : Fin 2) * 128 + 1 * k.val = k.val; omega
  show k0_pay1 (F := Ideal) (k0_pay2 (iblk0 V c 0 t) (iblk0 V c 1 t) (iblk0 V c 2 t) (iblk0 V c 3 t) (iblk0 V c 4 t) (iblk0 V c 5 t)
      (iblk0 V c 6 t) (iblk0 V c 7 t) (iblk0 V c 8 t))
    (k0_pay3 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t)) (iblk0 V c 10 t) (ix2 r k)
    = msgs V c (((cfg0.win 11).blk t).view.emb (ix2 r k))
  rw [hidx]
  unfold msgs
  rw [edgeMsgs_apply]
  exact stored_entry_of (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) r k _ _ _ _ _ _ _ _ _ _ _
    (fun j => blk0_0 V c t r j _ rfl) (fun j => blk0_1 V c t r j _ rfl) (fun j => blk0_2 V c t r j _ rfl)
    (fun j q => blk0_3 V c t j q) (fun j q => blk0_4 V c t j q) (fun j q => blk0_5 V c t j q) (fun q => blk0_6 V c t q)
    (fun j q => blk0_7 V c t j q) (fun q => blk0_8 V c t q) (fun q => blk0_9 V c t 0 q) (blk0_10 V c t 0)

/-- An index of the output array is in point t's block iff each coordinate is in the block's range on its axis. -/
theorem mem_blk0 (t : Fin cfg0.N) (i : S800000x128.Idx) :
    i ∈ ((cfg0.win 11).blk t).view.set ↔ ∀ a : Fin 2, win0_11.index t a * S8000x128.size a ≤ (i a).val
      ∧ (i a).val < win0_11.index t a * S8000x128.size a + S8000x128.size a := by
  show i ∈ ((View.whole main_v28).slice (win0_11.rect t)).set ↔ _
  rw [View.set_slice_whole, Rect.mem_set_unit]
  exact Iff.rfl

/-- Every row of the output array lies in some point's block: row i in block i / 8000. -/
theorem cover0 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  have htv : t.val = (i 0).val / 8000 := rfl
  have hf := idx_facts0 t
  refine ⟨t, flush0_11 t, ?_⟩
  rw [mem_blk0]
  intro a
  match a with
  | ⟨0, _⟩ =>
    show win0_11.index t (0 : Fin 2) * 8000 ≤ (i 0).val ∧ (i 0).val < win0_11.index t (0 : Fin 2) * 8000 + 8000
    omega
  | ⟨1, _⟩ =>
    show win0_11.index t (1 : Fin 2) * 128 ≤ (i 1).val ∧ (i 1).val < win0_11.index t (1 : Fin 2) * 128 + 128
    omega

/-- After the region its output array holds the edge messages of the arrays the region found. -/
theorem final0 (c : Dev nD) : (dat0 (F := Ideal) V c).arrAt 11 cfg0.N = msgs V c :=
  (dat0 (F := Ideal) V c).arrAt_eq_of_cover 11 (msgs V c) (fun t _ => flushed0_eq V c t) cover0

end Cert.KernelIdeal.Blocks

end
-- ==== Proof.KerUpdate.lean ====
/-
  What the update kernel's body stores, entry by entry.

  At one grid point the body holds a block of 5000 nodes: their own rows x and the rows ag of messages summed into
  them (128 lanes each), and the whole of the weights. Row r of what it stores depends on row r of x and ag alone: it
  is the updated row of that node (RowSpec.upd), the node's own row plus the update network's output.
-/
import proofs.«116265_j46334107189561_2_alg».proof.Proof.Gen.KernelIdeal.Skeleton
import proofs.«116265_j46334107189561_2_alg».proof.Proof.LibRowOps
import proofs.«116265_j46334107189561_2_alg».proof.Proof.RowSpec

noncomputable section

open scoped BigOperators

namespace Cert.KernelIdeal.Payload

open Cert.KernelIdeal Cert.KernelIdeal.Gen Idealize.ShloMosaic Idealize.ShloMosaic.ValueIdx Cert.RowSpec

/-- What the body stores, at row r and lane k of the block: the updated row of the block's node r. -/
theorem updated_entry (x0 x1 : FVec Ideal S5000x128 .f32) (x2 x3 : FVec Ideal S128x128 .bf16) (x4 : FVec Ideal S128 .f32)
    (x5 : FVec Ideal S128x128 .bf16) (x6 : FVec Ideal S128 .f32) (r : Fin 5000) (k : Fin 128) :
    k1_pay1 (F := Ideal) x0 x1 x2 x3 x4 x5 x6 (ix2 r k)
      = upd (fun j => x0 (ix2 r j)) (fun j => x1 (ix2 r j)) (fun j q => x2 (ix2 j q)) (fun j q => x3 (ix2 j q))
          (fun q => x4 (ix1 q)) (fun j q => x5 (ix2 j q)) (fun q => x6 (ix1 q)) k := by
  simp only [k1_pay1, upd, uhid, silu, mulf_apply, addf_apply, truncf_apply, shapeCast_self, Cert.LibRowOps.logistic_apply,
    Cert.LibRowOps.matmul_entry dot_S5000x128_S128x128_S5000x128_1_0_0_1_n_n rfl,
    Cert.LibRowOps.bias_rows]

/-- The same, for any rows and weights the block's entries are known to be. -/
theorem updated_entry_of (x0 x1 : FVec Ideal S5000x128 .f32) (x2 x3 : FVec Ideal S128x128 .bf16) (x4 : FVec Ideal S128 .f32)
    (x5 : FVec Ideal S128x128 .bf16) (x6 : FVec Ideal S128 .f32) (r : Fin 5000) (k : Fin 128)
    (x ag : Fin 128 → EReal) (wx wa : Fin 128 → Fin 128 → EReal) (c1 : Fin 128 → EReal) (v2 : Fin 128 → Fin 128 → EReal)
    (c2 : Fin 128 → EReal)
    (h0 : ∀ j, x0 (ix2 r j) = x j) (h1 : ∀ j, x1 (ix2 r j) = ag j) (h2 : ∀ j q, x2 (ix2 j q) = wx j q)
    (h3 : ∀ j q, x3 (ix2 j q) = wa j q) (h4 : ∀ q, x4 (ix1 q) = c1 q) (h5 : ∀ j q, x5 (ix2 j q) = v2 j q)
    (h6 : ∀ q, x6 (ix1 q) = c2 q) :
    k1_pay1 (F := Ideal) x0 x1 x2 x3 x4 x5 x6 (ix2 r k) = upd x ag wx wa c1 v2 c2 k := by
  rw [updated_entry, (funext h0 : (fun j => x0 (ix2 r j)) = x), (funext h1 : (fun j => x1 (ix2 r j)) = ag),
    (funext fun j => funext (h2 j) : (fun j q => x2 (ix2 j q)) = wx), (funext fun j => funext (h3 j) : (fun j q => x3 (ix2 j q)) = wa),
    (funext h4 : (fun q => x4 (ix1 q)) = c1), (funext fun j => funext (h5 j) : (fun j q => x5 (ix2 j q)) = v2),
    (funext h6 : (fun q => x6 (ix1 q)) = c2)]

end Cert.KernelIdeal.Payload

end
-- ==== Proof.BlocksUpdate.lean ====
/-
  The update region's output array, from its blocks.

  The region runs 10 grid points; point t stages rows 5000 t … 5000 t + 4999 of the node features and of the summed
  messages and the whole of every weight, and writes back the same rows of the output. What point t writes back is block
  t of ONE function of the arrays the region finds: the layer's node update. The 10 blocks tile the 50000 rows (row i
  lies in block i / 5000), so after the region the output array is that function.
-/
import proofs.«116265_j46334107189561_2_alg».proof.Proof.Gen.KernelIdeal.Frame
import proofs.«116265_j46334107189561_2_alg».proof.Proof.KerUpdate
import proofs.«116265_j46334107189561_2_alg».proof.Proof.LayerSpec
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Cert.RowSpec Cert.LayerSpec Cert.KernelIdeal.Payload
open Idealize.ShloMosaic.Pipeline (Dat Cfg Window)

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a <;> rfl

/-- The printed index maps over the grid: a window that moves with the grid has block index t on axis 0, every other
    block index is 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0 :=
  (by decide +kernel : ∀ t : Fin grid1.N, _)

/-- Window 0's block at point t, row r, is row t · 5000 + r of its array. -/
theorem blk1_0 (c : Dev nD) (t : Fin cfg1.N) (r : Fin 5000) (j : Fin 128) (e : Fin 50000)
    (he : e.val = t.val * 5000 + r.val) :
    iblk1 V c 0 t (ix2 r j) = V c main_arg0 (ix2 e j) := by
  show V c main_arg0 (((cfg1.win 0).blk t).view.emb (ix2 r j)) = _
  refine congrArg (V c main_arg0) ?_
  have hf := idx_facts1 t
  funext a; apply Fin.ext
  match a with
  | ⟨0, _⟩ => show win1_0.index t (0 : Fin 2) * 5000 + 1 * r.val = e.val; omega
  | ⟨1, _⟩ => show win1_0.index t (1 : Fin 2) * 128 + 1 * j.val = j.val; omega

/-- Window 1's block at point t, row r, is row t · 5000 + r of its array. -/
theorem blk1_1 (c : Dev nD) (t : Fin cfg1.N) (r : Fin 5000) (j : Fin 128) (e : Fin 50000)
    (he : e.val = t.val * 5000 + r.val) :
    iblk1 V c 1 t (ix2 r j) = V c main_v32 (ix2 e j) := by
  show V c main_v32 (((cfg1.win 1).blk t).view.emb (ix2 r j)) = _
  refine congrArg (V c main_v32) ?_
  have hf := idx_facts1 t
  funext a; apply Fin.ext
  match a with
  | ⟨0, _⟩ => show win1_1.index t (0 : Fin 2) * 5000 + 1 * r.val = e.val; omega
  | ⟨1, _⟩ => show win1_1.index t (1 : Fin 2) * 128 + 1 * j.val = j.val; omega

/-- Window 2's block at every point is its whole array. -/
theorem blk1_2 (c : Dev nD) (t : Fin cfg1.N) (j : Fin 128) (q : Fin 128) :
    iblk1 V c 2 t (ix2 j q) = V c main_v34 (ix2 j q) := by
  show V c main_v34 (((cfg1.win 2).blk t).view.emb (ix2 j q)) = _
  refine congrArg (V c main_v34) ?_
  have hf := idx_facts1 t
  funext a; apply Fin.ext
  match a with
  | ⟨0, _⟩ => show win1_2.index t (0 : Fin 2) * 128 + 1 * j.val = j.val; omega
  | ⟨1, _⟩ => show win1_2.index t (1 : Fin 2) * 128 + 1 * q.val = q.val; omega

/-- Window 3's block at every point is its whole array. -/
theorem blk1_3 (c : Dev nD) (t : Fin cfg1.N) (j : Fin 128) (q : Fin 128) :
    iblk1 V c 3 t (ix2 j q) = V c main_v36 (ix2 j q) := by
  show V c main_v36 (((cfg1.win 3).blk t).view.emb (ix2 j q)) = _
  refine congrArg (V c main_v36) ?_
  have hf := idx_facts1 t
  funext a; apply Fin.ext
  match a with
  | ⟨0, _⟩ => show win1_3.index t (0 : Fin 2) * 128 + 1 * j.val = j.val; omega
  | ⟨1, _⟩ => show win1_3.index t (1 : Fin 2) * 128 + 1 * q.val = q.val; omega

/-- Window 4's block at every point is its whole array. -/
theorem blk1_4 (c : Dev nD) (t : Fin cfg1.N) (q : Fin 128) :
    iblk1 V c 4 t (ix1 q) = V c main_arg10 (ix1 q) := by
  show V c main_arg10 (((cfg1.win 4).blk t).view.emb (ix1 q)) = _
  refine congrArg (V c main_arg10) ?_
  have hf := idx_facts1 t
  funext a; apply Fin.ext
  match a with
  | ⟨0, _⟩ => show win1_4.index t (0 : Fin 1) * 128 + 1 * q.val = q.val; omega

/-- Window 5's block at every point is its whole array. -/
theorem blk1_5 (c : Dev nD) (t : Fin cfg1.N) (j : Fin 128) (q : Fin 128) :
    iblk1 V c 5 t (ix2 j q) = V c main_v37 (ix2 j q) := by
  show V c main_v37 (((cfg1.win 5).blk t).view.emb (ix2 j q)) = _
  refine congrArg (V c main_v37) ?_
  have hf := idx_facts1 t
  funext a; apply Fin.ext
  match a with
  | ⟨0, _⟩ => show win1_5.index t (0 : Fin 2) * 128 + 1 * j.val = j.val; omega
  | ⟨1, _⟩ => show win1_5.index t (1 : Fin 2) * 128 + 1 * q.val = q.val; omega

/-- Window 6's block at every point is its whole array. -/
theorem blk1_6 (c : Dev nD) (t : Fin cfg1.N) (q : Fin 128) :
    iblk1 V c 6 t (ix1 q) = V c main_arg12 (ix1 q) := by
  show V c main_arg12 (((cfg1.win 6).blk t).view.emb (ix1 q)) = _
  refine congrArg (V c main_arg12) ?_
  have hf := idx_facts1 t
  funext a; apply Fin.ext
  match a with
  | ⟨0, _⟩ => show win1_6.index t (0 : Fin 1) * 128 + 1 * q.val = q.val; omega

/-- The node update of the arrays the region finds. -/
def upds (c : Dev nD) : S50000x128.Idx → Elt Ideal .f32 :=
  nodeUpd (V c main_arg0) (V c main_v32) (sqW (V c main_v34)) (sqW (V c main_v36)) (vecB (V c main_arg10))
    (sqW (V c main_v37)) (vecB (V c main_arg12))

/-- What point t writes back is block t of the node update. -/
theorem flushed1_eq (c : Dev nD) (t : Fin cfg1.N) :
    (dat1 (F := Ideal) V c).flushed 7 t = ((cfg1.win 7).blk t).view.read (Elt Ideal) (upds V c) := by
  show (cfg1.win 7).cut (grid1.coords t) ((dat1 (F := Ideal) V c).after 7 t) = _
  rw [after1_7]
  unfold out1_7
  rw [View.canon_unit_zero hz2']
  simp only [View.ld_unit_zero (S := S5000x128) hz2', View.ld_unit_zero (S := S128x128) hz2', View.ld_unit_zero (S := S128) hz1']
  funext y
  obtain ⟨r, k, rfl⟩ : ∃ (r : Fin 5000) (k : Fin 128), y = ix2 r k := ⟨y 0, y 1, eq_ix2 y⟩
  have hf := idx_facts1 t
  have ht : t.val < 10 := by have := t.isLt; have hN : cfg1.N = 10 := N_1; omega
  have hidx : ((cfg1.win 7).blk t).view.emb (ix2 r k) = ix2 (⟨t.val * 5000 + r.val, by have := r.isLt; omega⟩ : Fin 50000) k := by
    funext a; apply Fin.ext
    match a with
    | ⟨0, _⟩ => show win1_7.index t (0 : Fin 2) * 5000 + 1 * r.val = t.val * 5000 + r.val; omega
    | ⟨1, _⟩ => show win1_7.index t (1 : Fin 2) * 128 + 1 * k.val = k.val; omega
  show k1_pay1 (F := Ideal) (iblk1 V c 0 t) (iblk1 V c 1 t) (iblk1 V c 2 t) (iblk1 V c 3 t) (iblk1 V c 4 t) (iblk1 V c 5 t)
      (iblk1 V c 6 t) (ix2 r k)
    = upds V c (((cfg1.win 7).blk t).view.emb (ix2 r k))
  rw [hidx]
  unfold upds
  rw [nodeUpd_apply]
  exact updated_entry_of (iblk1 V c 0 t) (iblk1 V c 1 t) (iblk1 V c 2 t) (iblk1 V c 3 t) (iblk1 V c 4 t) (iblk1 V c 5 t)
    (iblk1 V c 6 t) r k _ _ _ _ _ _ _
    (fun j => blk1_0 V c t r j _ rfl) (fun j => blk1_1 V c t r j _ rfl)
    (fun j q => blk1_2 V c t j q) (fun j q => blk1_3 V c t j q) (fun q => blk1_4 V c t q)
    (fun j q => blk1_5 V c t j q) (fun q => blk1_6 V c t q)

/-- An index of the output array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v38).slice (win1_7.rect t)).set ↔ _
  rw [View.set_slice_whole, Rect.mem_set_unit]
  exact Iff.rfl

/-- Every row of the output array lies in some point's block: row i in block i / 5000. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have htv : t.val = (i 0).val / 5000 := rfl
  have hf := idx_facts1 t
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- After the region its output array holds the node update of the arrays the region found. -/
theorem final1 (c : Dev nD) : (dat1 (F := Ideal) V c).arrAt 7 cfg1.N = upds V c :=
  (dat1 (F := Ideal) V c).arrAt_eq_of_cover 7 (upds V c) (fun t _ => flushed1_eq V c t) cover1

end Cert.KernelIdeal.Blocks

end
-- ==== Proof.HostSide.lean ====
/-
  What the two regions find in their arrays.

  Before the message region the host cuts the two rows of the index pairs into vectors, raises an index below zero by the
  number of nodes, gathers the rows of the node features by sender and by receiver, cuts the first weight into its three
  row stretches and transposes the gate's weight into a row. Between the regions it scatter-adds the message region's
  output rows by receiver into a zero array and cuts the update network's first weight into its two row stretches. A
  change of float format is the identity over the extended reals, so each array a region finds is a plain function of
  the program's arguments and, for the update region, of the message region's output.
-/
import proofs.«116265_j46334107189561_2_alg».proof.Proof.Gen.KernelIdeal.Frame
import proofs.«116265_j46334107189561_2_alg».proof.Proof.LayerSpec
import Idealize.ShloMosaic.Lib.ValueLayout
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.LayerSpec

variable (m : (ℓ : Loc nD τ sig) → Buf (Elt Ideal) ℓ) (ρ : Dev nD → PrngReg)

/-- The start indices of a gather of rows: an index below zero is raised by the number of nodes. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- Row a of the index pairs, as a vector. -/
def idxRow (a : Nat) (h : S2x800000.Slices ![a, 0] S1x800000) (adj : IVec S2x800000 32) : IVec S800000 32 :=
  shapeCast _ (extractStridedSlice S1x800000 ![a, 0] adj h) shapeCasts_S1x800000_S800000

/-! ## The message region's arrays -/

theorem entry0_xs (c : Dev nD) :
    (V1 m ρ c main_v12 : S800000x128.Idx → EReal) = Host.gather gather_S50000x128_S800000x1_S800000x128_1_0_n_n_0_1_1128
      (truncf (F := Ideal) .bf16 (m ((c : Thread nD τ).loc main_arg0)) bitsLt_bf16_f32)
      (wrapIdx (idxRow 0 slices_S2x800000_S1x800000_0_0 (m ((c : Thread nD τ).loc main_arg1)))) := by
  show StableHlo.after hostOps0 (W0 m ρ c) (Proc.devRef .tc main_v12) = _
  simp only [hostOps0]
  after_results_simp <;> rfl

theorem entry0_xr (c : Dev nD) :
    (V1 m ρ c main_v19 : S800000x128.Idx → EReal) = Host.gather gather_S50000x128_S800000x1_S800000x128_1_0_n_n_0_1_1128
      (truncf (F := Ideal) .bf16 (m ((c : Thread nD τ).loc main_arg0)) bitsLt_bf16_f32)
      (wrapIdx (idxRow 1 slices_S2x800000_S1x800000_1_0 (m ((c : Thread nD τ).loc main_arg1)))) := by
  show StableHlo.after hostOps0 (W0 m ρ c) (Proc.devRef .tc main_v19) = _
  simp only [hostOps0]
  after_results_simp <;> rfl

theorem entry0_iv (c : Dev nD) : (V1 m ρ c main_v5 : S800000x32.Idx → EReal) = truncf (F := Ideal) .bf16 (m ((c : Thread nD τ).loc main_arg2)) bitsLt_bf16_f32 := by
  show StableHlo.after hostOps0 (W0 m ρ c) (Proc.devRef .tc main_v5) = _
  simp only [hostOps0]
  after_results_simp <;> rfl

theorem entry0_ws (c : Dev nD) :
    (V1 m ρ c main_v21 : S128x128.Idx → EReal) = truncf (F := Ideal) .bf16 (extractStridedSlice S128x128 ![0, 0] (m ((c : Thread nD τ).loc main_arg3)) slices_S288x128_S128x128_0_0) bitsLt_bf16_f32 := by
  show StableHlo.after hostOps0 (W0 m ρ c) (Proc.devRef .tc main_v21) = _
  simp only [hostOps0]
  after_results_simp <;> rfl

theorem entry0_wr (c : Dev nD) :
    (V1 m ρ c main_v23 : S128x128.Idx → EReal) = truncf (F := Ideal) .bf16 (extractStridedSlice S128x128 ![128, 0] (m ((c : Thread nD τ).loc main_arg3)) slices_S288x128_S128x128_128_0) bitsLt_bf16_f32 := by
  show StableHlo.after hostOps0 (W0 m ρ c) (Proc.devRef .tc main_v23) = _
  simp only [hostOps0]
  after_results_simp <;> rfl

theorem entry0_wi (c : Dev nD) :
    (V1 m ρ c main_v25 : S32x128.Idx → EReal) = truncf (F := Ideal) .bf16 (extractStridedSlice S32x128 ![256, 0] (m ((c : Thread nD τ).loc main_arg3)) slices_S288x128_S32x128_256_0) bitsLt_bf16_f32 := by
  show StableHlo.after hostOps0 (W0 m ρ c) (Proc.devRef .tc main_v25) = _
  simp only [hostOps0]
  after_results_simp <;> rfl

theorem entry0_b1 (c : Dev nD) : (V1 m ρ c main_arg4 : S128.Idx → EReal) = (m ((c : Thread nD τ).loc main_arg4)) := by
  show StableHlo.after hostOps0 (W0 m ρ c) (Proc.devRef .tc main_arg4) = _
  simp only [hostOps0]
  after_results_simp <;> rfl

theorem entry0_w2 (c : Dev nD) : (V1 m ρ c main_v26 : S128x128.Idx → EReal) = truncf (F := Ideal) .bf16 (m ((c : Thread nD τ).loc main_arg5)) bitsLt_bf16_f32 := by
  show StableHlo.after hostOps0 (W0 m ρ c) (Proc.devRef .tc main_v26) = _
  simp only [hostOps0]
  after_results_simp <;> rfl

theorem entry0_b2 (c : Dev nD) : (V1 m ρ c main_arg6 : S128.Idx → EReal) = (m ((c : Thread nD τ).loc main_arg6)) := by
  show StableHlo.after hostOps0 (W0 m ρ c) (Proc.devRef .tc main_arg6) = _
  simp only [hostOps0]
  after_results_simp <;> rfl

theorem entry0_we (c : Dev nD) :
    (V1 m ρ c main_v27 : S1x128.Idx → EReal) = transpose S1x128 [1, 0] (m ((c : Thread nD τ).loc main_arg7)) transposes_S128x1_S1x128_1_0 := by
  show StableHlo.after hostOps0 (W0 m ρ c) (Proc.devRef .tc main_v27) = _
  simp only [hostOps0]
  after_results_simp <;> rfl

theorem entry0_be (c : Dev nD) : (V1 m ρ c main_arg8 : S1.Idx → EReal) = (m ((c : Thread nD τ).loc main_arg8)) := by
  show StableHlo.after hostOps0 (W0 m ρ c) (Proc.devRef .tc main_arg8) = _
  simp only [hostOps0]
  after_results_simp <;> rfl

/-- The receivers' index vector, as the message region leaves it. -/
theorem exit0_rec (c : Dev nD) :
    (W2 m ρ c (Proc.devRef .tc main_v3) : S800000.Idx → BitVec 32) = idxRow 1 slices_S2x800000_S1x800000_1_0 (m ((c : Thread nD τ).loc main_arg1)) := by
  rw [W2_of_ne m ρ c main_v3 (by decide)]
  show StableHlo.after hostOps0 (W0 m ρ c) (Proc.devRef .tc main_v3) = _
  simp only [hostOps0]
  after_results_simp <;> rfl

/-- An argument array, as the message region leaves it. -/
theorem exit0_arg0 (c : Dev nD) : (W2 m ρ c (Proc.devRef .tc main_arg0) : S50000x128.Idx → EReal) = (m ((c : Thread nD τ).loc main_arg0)) := by
  rw [W2_of_ne m ρ c main_arg0 (by decide)]
  show StableHlo.after hostOps0 (W0 m ρ c) (Proc.devRef .tc main_arg0) = _
  simp only [hostOps0]
  after_results_simp <;> rfl
theorem exit0_arg9 (c : Dev nD) : (W2 m ρ c (Proc.devRef .tc main_arg9) : S256x128.Idx → EReal) = (m ((c : Thread nD τ).loc main_arg9)) := by
  rw [W2_of_ne m ρ c main_arg9 (by decide)]
  show StableHlo.after hostOps0 (W0 m ρ c) (Proc.devRef .tc main_arg9) = _
  simp only [hostOps0]
  after_results_simp <;> rfl
theorem exit0_arg10 (c : Dev nD) : (W2 m ρ c (Proc.devRef .tc main_arg10) : S128.Idx → EReal) = (m ((c : Thread nD τ).loc main_arg10)) := by
  rw [W2_of_ne m ρ c main_arg10 (by decide)]
  show StableHlo.after hostOps0 (W0 m ρ c) (Proc.devRef .tc main_arg10) = _
  simp only [hostOps0]
  after_results_simp <;> rfl
theorem exit0_arg11 (c : Dev nD) : (W2 m ρ c (Proc.devRef .tc main_arg11) : S128x128.Idx → EReal) = (m ((c : Thread nD τ).loc main_arg11)) := by
  rw [W2_of_ne m ρ c main_arg11 (by decide)]
  show StableHlo.after hostOps0 (W0 m ρ c) (Proc.devRef .tc main_arg11) = _
  simp only [hostOps0]
  after_results_simp <;> rfl
theorem exit0_arg12 (c : Dev nD) : (W2 m ρ c (Proc.devRef .tc main_arg12) : S128.Idx → EReal) = (m ((c : Thread nD τ).loc main_arg12)) := by
  rw [W2_of_ne m ρ c main_arg12 (by decide)]
  show StableHlo.after hostOps0 (W0 m ρ c) (Proc.devRef .tc main_arg12) = _
  simp only [hostOps0]
  after_results_simp <;> rfl

/-! ## The update region's arrays -/

theorem entry1_x (c : Dev nD) : (V3 m ρ c main_arg0 : S50000x128.Idx → EReal) = (m ((c : Thread nD τ).loc main_arg0)) := by
  show StableHlo.after hostOps1 (W2 m ρ c) (Proc.devRef .tc main_arg0) = _
  simp only [hostOps1]
  after_results_simp
  exact exit0_arg0 m ρ c

theorem entry1_ag (c : Dev nD) :
    (V3 m ρ c main_v32 : S50000x128.Idx → EReal) = Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (idxRow 1 slices_S2x800000_S1x800000_1_0 (m ((c : Thread nD τ).loc main_arg1))))
      (extf (F := Ideal) .f32 ((dat0 (F := Ideal) (V1 m ρ) c).arrAt 11 cfg0.N) bitsLt_bf16_f32) := by
  show StableHlo.after hostOps1 (W2 m ρ c) (Proc.devRef .tc main_v32) = _
  simp only [hostOps1]
  after_results_simp
  rw [exit0_rec m ρ c, show W2 m ρ c (Proc.devRef .tc main_v28) = (dat0 (F := Ideal) (V1 m ρ) c).arrAt 11 cfg0.N from W2_arr m ρ c 11]

theorem entry1_wx (c : Dev nD) :
    (V3 m ρ c main_v34 : S128x128.Idx → EReal) = truncf (F := Ideal) .bf16 (extractStridedSlice S128x128 ![0, 0] (m ((c : Thread nD τ).loc main_arg9)) slices_S256x128_S128x128_0_0) bitsLt_bf16_f32 := by
  show StableHlo.after hostOps1 (W2 m ρ c) (Proc.devRef .tc main_v34) = _
  simp only [hostOps1]
  after_results_simp
  rw [exit0_arg9 m ρ c]

theorem entry1_wa (c : Dev nD) :
    (V3 m ρ c main_v36 : S128x128.Idx → EReal) = truncf (F := Ideal) .bf16 (extractStridedSlice S128x128 ![128, 0] (m ((c : Thread nD τ).loc main_arg9)) slices_S256x128_S128x128_128_0) bitsLt_bf16_f32 := by
  show StableHlo.after hostOps1 (W2 m ρ c) (Proc.devRef .tc main_v36) = _
  simp only [hostOps1]
  after_results_simp
  rw [exit0_arg9 m ρ c]

theorem entry1_c1 (c : Dev nD) : (V3 m ρ c main_arg10 : S128.Idx → EReal) = (m ((c : Thread nD τ).loc main_arg10)) := by
  show StableHlo.after hostOps1 (W2 m ρ c) (Proc.devRef .tc main_arg10) = _
  simp only [hostOps1]
  after_results_simp
  exact exit0_arg10 m ρ c

theorem entry1_v2 (c : Dev nD) : (V3 m ρ c main_v37 : S128x128.Idx → EReal) = truncf (F := Ideal) .bf16 (m ((c : Thread nD τ).loc main_arg11)) bitsLt_bf16_f32 := by
  show StableHlo.after hostOps1 (W2 m ρ c) (Proc.devRef .tc main_v37) = _
  simp only [hostOps1]
  after_results_simp
  rw [exit0_arg11 m ρ c]

theorem entry1_c2 (c : Dev nD) : (V3 m ρ c main_arg12 : S128.Idx → EReal) = (m ((c : Thread nD τ).loc main_arg12)) := by
  show StableHlo.after hostOps1 (W2 m ρ c) (Proc.devRef .tc main_arg12) = _
  simp only [hostOps1]
  after_results_simp
  exact exit0_arg12 m ρ c

/-! ## The weights' stretches -/

/-- The first stretch of rows of the first weight, cut out by the host, is its rows 0 … 127. -/
theorem slice_top (W : FVec Ideal S288x128 .f32) :
    sqW (truncf (F := Ideal) .bf16 (extractStridedSlice S128x128 ![0, 0] W slices_S288x128_S128x128_0_0) bitsLt_bf16_f32) = rowsTop W := by
  funext j q
  exact slice2_axis0_apply 0 W slices_S288x128_S128x128_0_0 j q _ (by show j.val = 0 + j.val; omega)
theorem slice_mid (W : FVec Ideal S288x128 .f32) :
    sqW (truncf (F := Ideal) .bf16 (extractStridedSlice S128x128 ![128, 0] W slices_S288x128_S128x128_128_0) bitsLt_bf16_f32) = rowsMid W := by
  funext j q
  exact slice2_axis0_apply 128 W slices_S288x128_S128x128_128_0 j q _ rfl
theorem slice_low (W : FVec Ideal S288x128 .f32) :
    (fun j q => truncf (F := Ideal) .bf16 (extractStridedSlice S32x128 ![256, 0] W slices_S288x128_S32x128_256_0) bitsLt_bf16_f32 (ix2 j q))
      = rowsLow W := by
  funext j q
  exact slice2_axis0_apply 256 W slices_S288x128_S32x128_256_0 j q _ (by show 128 + 128 + j.val = 256 + j.val; omega)
theorem slice_top2 (W : FVec Ideal S256x128 .f32) :
    sqW (truncf (F := Ideal) .bf16 (extractStridedSlice S128x128 ![0, 0] W slices_S256x128_S128x128_0_0) bitsLt_bf16_f32) = rowsTop2 W := by
  funext j q
  exact slice2_axis0_apply 0 W slices_S256x128_S128x128_0_0 j q _ (by show j.val = 0 + j.val; omega)
theorem slice_low2 (W : FVec Ideal S256x128 .f32) :
    sqW (truncf (F := Ideal) .bf16 (extractStridedSlice S128x128 ![128, 0] W slices_S256x128_S128x128_128_0) bitsLt_bf16_f32) = rowsLow2 W := by
  funext j q
  exact slice2_axis0_apply 128 W slices_S256x128_S128x128_128_0 j q _ rfl
/-- The gate's weight transposed into a row reads, at lane q, the weight's row q. -/
theorem row_of_col (W : FVec Ideal S128x1 .f32) :
    (fun q => transpose S1x128 [1, 0] W transposes_S128x1_S1x128_1_0 (ix2 (0 : Fin 1) q)) = colW W := by
  funext q
  exact transpose_ix2_apply W transposes_S128x1_S1x128_1_0 (0 : Fin 1) q

end Cert.KernelIdeal.HostSide

end
-- ==== Proof.KernelValue.lean ====
/-
  The idealized kernel's result as the layer's two whole-array functions.

  After the run the result buffer holds the update region's output array. That array is the node update of what the
  region found: the node features as launched, and the scatter-add by receiver, into a zero array, of the message
  region's output; the message region's output is the edge messages of what that region found: the feature rows gathered
  by sender and by receiver, the invariants, and the weights, the first weight cut into its three row stretches. A change
  of float format is the identity over the extended reals.
-/
import proofs.«116265_j46334107189561_2_alg».proof.Proof.KernelRun
import proofs.«116265_j46334107189561_2_alg».proof.Proof.BlocksMessage
import proofs.«116265_j46334107189561_2_alg».proof.Proof.BlocksUpdate
import proofs.«116265_j46334107189561_2_alg».proof.Proof.HostSide

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.LayerSpec Cert.KernelIdeal.HostSide Cert.KernelIdeal.Blocks

variable (m : (ℓ : Loc nD τ sig) → Buf (Elt Ideal) ℓ) (ρ : Dev nD → PrngReg)

/-- The gated messages of all edges, from the program's arguments. -/
def messages (c : Dev nD) : S800000x128.Idx → EReal :=
  edgeMsgs
    (Host.gather gather_S50000x128_S800000x1_S800000x128_1_0_n_n_0_1_1128 (m ((c : Thread nD τ).loc main_arg0))
      (wrapIdx (idxRow 0 slices_S2x800000_S1x800000_0_0 (m ((c : Thread nD τ).loc main_arg1)))))
    (Host.gather gather_S50000x128_S800000x1_S800000x128_1_0_n_n_0_1_1128 (m ((c : Thread nD τ).loc main_arg0))
      (wrapIdx (idxRow 1 slices_S2x800000_S1x800000_1_0 (m ((c : Thread nD τ).loc main_arg1)))))
    (m ((c : Thread nD τ).loc main_arg2)) (rowsTop (m ((c : Thread nD τ).loc main_arg3))) (rowsMid (m ((c : Thread nD τ).loc main_arg3))) (rowsLow (m ((c : Thread nD τ).loc main_arg3))) (vecB (m ((c : Thread nD τ).loc main_arg4))) (sqW (m ((c : Thread nD τ).loc main_arg5))) (vecB (m ((c : Thread nD τ).loc main_arg6)))
    (colW (m ((c : Thread nD τ).loc main_arg7))) ((m ((c : Thread nD τ).loc main_arg8)) (ix1 (0 : Fin 1)))

/-- The layer's result, from the program's arguments. -/
def result (c : Dev nD) : S50000x128.Idx → EReal :=
  nodeUpd (m ((c : Thread nD τ).loc main_arg0))
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (idxRow 1 slices_S2x800000_S1x800000_1_0 (m ((c : Thread nD τ).loc main_arg1))))
      (messages m c))
    (rowsTop2 (m ((c : Thread nD τ).loc main_arg9))) (rowsLow2 (m ((c : Thread nD τ).loc main_arg9))) (vecB (m ((c : Thread nD τ).loc main_arg10))) (sqW (m ((c : Thread nD τ).loc main_arg11))) (vecB (m ((c : Thread nD τ).loc main_arg12)))

/-- The message region's output array is the gated messages. -/
theorem messages_eq (c : Dev nD) : (dat0 (F := Ideal) (V1 m ρ) c).arrAt 11 cfg0.N = messages m c := by
  rw [final0 (V1 m ρ) c]
  unfold msgs messages
  rw [entry0_xs, entry0_xr, entry0_iv, entry0_ws, entry0_wr, entry0_wi, entry0_b1, entry0_w2, entry0_b2, entry0_we, entry0_be,
    slice_top, slice_mid, slice_low, row_of_col]
  rfl

/-- The result buffer at the last boundary holds the layer's result. -/
theorem result_eq (c : Dev nD) : W4 m ρ c (Proc.devRef .tc main_v38) = result m c := by
  rw [show W4 m ρ c (Proc.devRef .tc main_v38) = (dat1 (F := Ideal) (V3 m ρ) c).arrAt 7 cfg1.N from W4_arr m ρ c 7,
    final1 (V3 m ρ) c]
  unfold upds result
  rw [entry1_x, entry1_ag, entry1_wx, entry1_wa, entry1_c1, entry1_v2, entry1_c2, slice_top2, slice_low2, messages_eq]
  rfl

/-- Every weakly fair execution of the idealized kernel terminates, nothing faulting, with the layer's result in the result
    buffer and every argument as launched. -/
theorem run : θ_run defs (onTc (τ := τ) (main (F := Ideal))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩)
    (Cert.KernelIdeal.RunValue.run_result (F := Ideal) m ρ)

end Cert.KernelIdeal.KernelValue

end
-- ==== Proof.LibConcatLanes3.lean ====
/-
  Three arrays [R, n0], [R, n1], [R, n2] laid side by side along the lanes, read at an index.

  The concatenation along axis 1 is an [R, w] array with w = n0 + n1 + n2. Its entry in row r and lane l comes from the
  piece whose span of lanes holds l: the first at lane l when l < n0, the second at lane l - n0 when n0 ≤ l < n0 + n1,
  the third at lane l - (n0 + n1) otherwise; the row is the same in every case.
-/
import Idealize.ShloMosaic.Lib.Pipeline.Value
import Idealize.ShloMosaic.Lib.ValueIdx

namespace Cert.LibConcatLanes3

open Idealize.ShloMosaic Idealize.ShloMosaic.ValueIdx

/-- Row `r`, lane `l` of three arrays laid side by side: the piece whose lanes hold `l`, at `l` less the lanes of the
    pieces before it. -/
def lanes3 {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (l : Fin w) : α :=
  if h0 : l.val < n0 then a (ix2 r ⟨l.val, h0⟩)
  else if h1 : l.val < n0 + n1 then b (ix2 r ⟨l.val - n0, by omega⟩)
  else c (ix2 r ⟨l.val - (n0 + n1), by have := l.isLt; omega⟩)

/-- **The concatenation of three arrays along the lanes, read at row `r` and lane `l`**, is `lanes3`. -/
theorem concatenate3_lanes_apply {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (h : Shape.Concatenates ([(⟨⟨2, ![R, n0]⟩, a⟩ : (s : Shape) × (s.Idx → α)), ⟨⟨2, ![R, n1]⟩, b⟩, ⟨⟨2, ![R, n2]⟩, c⟩].map (·.1))
      ⟨2, ![R, w]⟩ (1 : Fin 2))
    (r : Fin R) (l : Fin w) :
    concatenate ⟨2, ![R, w]⟩ (1 : Fin 2) [⟨⟨2, ![R, n0]⟩, a⟩, ⟨⟨2, ![R, n1]⟩, b⟩, ⟨⟨2, ![R, n2]⟩, c⟩] h (ix2 r l)
      = lanes3 hw a b c r l := by
  unfold lanes3
  have hoff : ∀ {n : Nat} (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro n i hi bb hbb
    match bb with
    | ⟨0, _⟩ => exact hi
    | ⟨1, _⟩ => exact absurd rfl hbb
  by_cases h0 : l.val < n0
  · rw [dif_pos h0]
    exact concatenate_apply_piece (1 : Fin 2) _ h (ix2 r l) 0 (by simp) ⟨2, ![R, n0]⟩ a rfl rfl 0 rfl
      (ix2 r ⟨l.val, h0⟩) (hoff _ rfl) (by show 0 + l.val = l.val; omega)
  · rw [dif_neg h0]
    by_cases h1 : l.val < n0 + n1
    · rw [dif_pos h1]
      exact concatenate_apply_piece (1 : Fin 2) _ h (ix2 r l) 1 (by simp) ⟨2, ![R, n1]⟩ b rfl rfl n0 (by simp)
        (ix2 r ⟨l.val - n0, by omega⟩) (hoff _ rfl) (by show n0 + (l.val - n0) = l.val; omega)
    · rw [dif_neg h1]
      exact concatenate_apply_piece (1 : Fin 2) _ h (ix2 r l) 2 (by simp) ⟨2, ![R, n2]⟩ c rfl rfl (n0 + n1) (by simp)
        (ix2 r ⟨l.val - (n0 + n1), by have := l.isLt; omega⟩) (hoff _ rfl)
        (by show n0 + n1 + (l.val - (n0 + n1)) = l.val; omega)

end Cert.LibConcatLanes3
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.RefStages.lean ====
/-
  The reference program's result as the layer's two whole-array functions.

  The reference computes, on the host: the concatenation [XS | XR | IV] times W1 plus b1 through silu; that times W2
  plus b2 through silu (the message rows); their product with We plus be through the logistic function (the gate, a
  column); message rows times the gate broadcast across the lanes; a scatter-add of those rows into a zero array; the
  concatenation [X | AG] times Wu1 plus bu1 through silu; that times Wu2 plus bu2; plus X. Its silu and logistic are
  spelt with negate, exponential, add and divide, which over the extended reals denote the logistic function itself.
  Read entry by entry: a product with a concatenation is the sum over the concatenated lanes, which cut into the
  pieces' stretches is the sum of the pieces' partial products (RowSpec.sum_split3, sum_split2). So the message stage
  is LayerSpec.edgeMsgs and the update stage LayerSpec.nodeUpd, with W1 and Wu1 cut into their row stretches.
-/
import proofs.«116265_j46334107189561_2_alg».proof.Proof.Gen.ReferenceIdeal
import Idealize.ShloMosaic.Lib.StableHlo.Run
import proofs.«116265_j46334107189561_2_alg».proof.Proof.LibRowOps
import proofs.«116265_j46334107189561_2_alg».proof.Proof.LibConcatLanes3
import proofs.«116265_j46334107189561_2_alg».proof.Proof.LibConcat2
import proofs.«116265_j46334107189561_2_alg».proof.Proof.LayerSpec
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.RowSpec Cert.LayerSpec

/-! ## The stages, spelt as the program spells them -/

/-- The constant one over the edge rows. -/
def oneE : FVec Ideal S800000x128 .f32 := broadcastInDim S800000x128 ![] bcast_S_S800000x128 (constant (F := Ideal) S_ .f32 0x3F800000#32)
/-- The constant one over the edge column. -/
def oneC : FVec Ideal S800000x1 .f32 := broadcastInDim S800000x1 ![] bcast_S_S800000x1 (constant (F := Ideal) S_ .f32 0x3F800000#32)
/-- The constant one over the node rows. -/
def oneN : FVec Ideal S50000x128 .f32 := broadcastInDim S50000x128 ![] bcast_S_S50000x128 (constant (F := Ideal) S_ .f32 0x3F800000#32)

/-- silu over the edge rows, as the host spells it. -/
def siluE (y : FVec Ideal S800000x128 .f32) : FVec Ideal S800000x128 .f32 :=
  mulf y (Host.divf oneE (addf oneE (Host.exp (Host.negf y))))
/-- silu over the node rows, as the host spells it. -/
def siluN (y : FVec Ideal S50000x128 .f32) : FVec Ideal S50000x128 .f32 :=
  mulf y (Host.divf oneN (addf oneN (Host.exp (Host.negf y))))
/-- A bias broadcast down the edge rows. -/
def biasE (b : FVec Ideal S128 .f32) : FVec Ideal S800000x128 .f32 :=
  broadcastInDim S800000x128 ![0, 1] bcast_S1x128_S800000x128_0_1 (broadcastInDim S1x128 ![1] bcast_S128_S1x128_1 b)
/-- A bias broadcast down the node rows. -/
def biasN (b : FVec Ideal S128 .f32) : FVec Ideal S50000x128 .f32 :=
  broadcastInDim S50000x128 ![0, 1] bcast_S1x128_S50000x128_0_1 (broadcastInDim S1x128 ![1] bcast_S128_S1x128_1 b)

/-- The hidden rows of the message network. -/
def hidE (XS XR : FVec Ideal S800000x128 .f32) (IV : FVec Ideal S800000x32 .f32) (W1 : FVec Ideal S288x128 .f32)
    (b1 : FVec Ideal S128 .f32) : FVec Ideal S800000x128 .f32 :=
  siluE (addf (Host.dotGeneral dot_S800000x288_S288x128_S800000x128_1_0_0_1_n_n none
    (concatenate S800000x288 1 [⟨S800000x128, XS⟩, ⟨S800000x128, XR⟩, ⟨S800000x32, IV⟩]
      concatenates_S800000x128_S800000x128_S800000x32_S800000x288_d1) W1) (biasE b1))
/-- The message rows. -/
def msgE (H : FVec Ideal S800000x128 .f32) (W2 : FVec Ideal S128x128 .f32) (b2 : FVec Ideal S128 .f32) :
    FVec Ideal S800000x128 .f32 :=
  siluE (addf (Host.dotGeneral dot_S800000x128_S128x128_S800000x128_1_0_0_1_n_n none H W2) (biasE b2))
/-- The gate column. -/
def gateE (G : FVec Ideal S800000x128 .f32) (We : FVec Ideal S128x1 .f32) (be : FVec Ideal S1 .f32) : FVec Ideal S800000x1 .f32 :=
  Host.divf oneC (addf oneC (Host.exp (Host.negf (addf
    (Host.dotGeneral dot_S800000x128_S128x1_S800000x1_1_0_0_1_n_n none G We)
    (broadcastInDim S800000x1 ![0, 1] bcast_S1x1_S800000x1_0_1 (broadcastInDim S1x1 ![1] bcast_S1_S1x1_1 be))))))
/-- The gated message rows. -/
def gatedE (G : FVec Ideal S800000x128 .f32) (We : FVec Ideal S128x1 .f32) (be : FVec Ideal S1 .f32) : FVec Ideal S800000x128 .f32 :=
  mulf G (broadcastInDim S800000x128 ![0, 1] bcast_S800000x1_S800000x128_0_1 (gateE G We be))
/-- The message stage. -/
def refMsg (XS XR : FVec Ideal S800000x128 .f32) (IV : FVec Ideal S800000x32 .f32) (W1 : FVec Ideal S288x128 .f32)
    (b1 : FVec Ideal S128 .f32) (W2 : FVec Ideal S128x128 .f32) (b2 : FVec Ideal S128 .f32) (We : FVec Ideal S128x1 .f32)
    (be : FVec Ideal S1 .f32) : FVec Ideal S800000x128 .f32 :=
  gatedE (msgE (hidE XS XR IV W1 b1) W2 b2) We be
/-- The update stage. -/
def refUpd (X AG : FVec Ideal S50000x128 .f32) (Wu1 : FVec Ideal S256x128 .f32) (bu1 : FVec Ideal S128 .f32)
    (Wu2 : FVec Ideal S128x128 .f32) (bu2 : FVec Ideal S128 .f32) : FVec Ideal S50000x128 .f32 :=
  addf X (addf (Host.dotGeneral dot_S50000x128_S128x128_S50000x128_1_0_0_1_n_n none
    (siluN (addf (Host.dotGeneral dot_S50000x256_S256x128_S50000x128_1_0_0_1_n_n none
      (concatenate S50000x256 1 [⟨S50000x128, X⟩, ⟨S50000x128, AG⟩] concatenates_S50000x128_S50000x128_S50000x256_d1) Wu1) (biasN bu1)))
    Wu2) (biasN bu2))

/-- The start indices of a gather of rows: an index below zero is raised by the number of nodes. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- Row a of the index pairs, as a vector. -/
def idxRow (a : Nat) (h : S2x800000.Slices ![a, 0] S1x800000) (adj : IVec S2x800000 32) : IVec S800000 32 :=
  shapeCast _ (extractStridedSlice S1x800000 ![a, 0] adj h) shapeCasts_S1x800000_S800000

/-! ## The stages read entry by entry -/

theorem oneE_apply (i : S800000x128.Idx) : oneE i = 1 :=
  (Cert.LibRowOps.scalar_bcast_host _ bcast_S_S800000x128 i).trans Ideal.ofBits_one_f32
theorem oneC_apply (i : S800000x1.Idx) : oneC i = 1 :=
  (Cert.LibRowOps.scalar_bcast_host _ bcast_S_S800000x1 i).trans Ideal.ofBits_one_f32
theorem oneN_apply (i : S50000x128.Idx) : oneN i = 1 :=
  (Cert.LibRowOps.scalar_bcast_host _ bcast_S_S50000x128 i).trans Ideal.ofBits_one_f32

theorem siluE_apply (y : FVec Ideal S800000x128 .f32) (i : S800000x128.Idx) : siluE y i = silu (y i) :=
  Cert.LibRowOps.host_silu_apply y oneE oneE i (oneE_apply i) (oneE_apply i)
theorem siluN_apply (y : FVec Ideal S50000x128 .f32) (i : S50000x128.Idx) : siluN y i = silu (y i) :=
  Cert.LibRowOps.host_silu_apply y oneN oneN i (oneN_apply i) (oneN_apply i)
theorem biasE_apply (b : FVec Ideal S128 .f32) (e : Fin 800000) (k : Fin 128) : biasE b (ix2 e k) = b (ix1 k) :=
  Cert.LibRowOps.bias_rows_host b bcast_S128_S1x128_1 bcast_S1x128_S800000x128_0_1 e k
theorem biasN_apply (b : FVec Ideal S128 .f32) (n : Fin 50000) (k : Fin 128) : biasN b (ix2 n k) = b (ix1 k) :=
  Cert.LibRowOps.bias_rows_host b bcast_S128_S1x128_1 bcast_S1x128_S50000x128_0_1 n k

/-- Three pieces laid side by side, read in the first piece's stretch. -/
theorem lanes3_fst {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (j : Fin n0) (hl : j.val < w) :
    Cert.LibConcatLanes3.lanes3 hw a b c r ⟨j.val, hl⟩ = a (ix2 r j) := by
  unfold Cert.LibConcatLanes3.lanes3
  rw [dif_pos (show (⟨j.val, hl⟩ : Fin w).val < n0 from j.isLt)]
/-- … in the second piece's stretch. -/
theorem lanes3_snd {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (j : Fin n1) (hl : n0 + j.val < w) :
    Cert.LibConcatLanes3.lanes3 hw a b c r ⟨n0 + j.val, hl⟩ = b (ix2 r j) := by
  unfold Cert.LibConcatLanes3.lanes3
  rw [dif_neg (show ¬ (⟨n0 + j.val, hl⟩ : Fin w).val < n0 from by show ¬ n0 + j.val < n0; omega),
    dif_pos (show (⟨n0 + j.val, hl⟩ : Fin w).val < n0 + n1 from by show n0 + j.val < n0 + n1; have := j.isLt; omega)]
  exact congrArg (fun q => b (ix2 r q)) (Fin.ext (by show n0 + j.val - n0 = j.val; omega))
/-- … in the third piece's stretch. -/
theorem lanes3_trd {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (j : Fin n2) (hl : n0 + n1 + j.val < w) :
    Cert.LibConcatLanes3.lanes3 hw a b c r ⟨n0 + n1 + j.val, hl⟩ = c (ix2 r j) := by
  unfold Cert.LibConcatLanes3.lanes3
  rw [dif_neg (show ¬ (⟨n0 + n1 + j.val, hl⟩ : Fin w).val < n0 from by show ¬ n0 + n1 + j.val < n0; omega),
    dif_neg (show ¬ (⟨n0 + n1 + j.val, hl⟩ : Fin w).val < n0 + n1 from by show ¬ n0 + n1 + j.val < n0 + n1; omega)]
  exact congrArg (fun q => c (ix2 r q)) (Fin.ext (by show n0 + n1 + j.val - (n0 + n1) = j.val; omega))

/-- The hidden rows, entry by entry. -/
theorem hidE_apply (XS XR : FVec Ideal S800000x128 .f32) (IV : FVec Ideal S800000x32 .f32) (W1 : FVec Ideal S288x128 .f32)
    (b1 : FVec Ideal S128 .f32) (e : Fin 800000) (k : Fin 128) :
    hidE XS XR IV W1 b1 (ix2 e k)
      = hid (fun j => XS (ix2 e j)) (fun j => XR (ix2 e j)) (fun j => IV (ix2 e j)) (rowsTop W1) (rowsMid W1) (rowsLow W1) (vecB b1) k := by
  unfold hidE hid
  rw [siluE_apply]
  refine congrArg silu ?_
  rw [addf_apply, Cert.LibRowOps.dot_entry dot_S800000x288_S288x128_S800000x128_1_0_0_1_n_n rfl, biasE_apply, sum_split3]
  refine congrArg (· + b1 (ix1 k)) ?_
  refine congrArg₂ (· + ·) (congrArg₂ (· + ·) ?_ ?_) ?_
  · refine Finset.sum_congr rfl fun j _ => ?_
    rw [Cert.LibConcatLanes3.concatenate3_lanes_apply (n0 := 128) (n1 := 128) (n2 := 32) rfl, lanes3_fst]
    rfl
  · refine Finset.sum_congr rfl fun j _ => ?_
    rw [Cert.LibConcatLanes3.concatenate3_lanes_apply (n0 := 128) (n1 := 128) (n2 := 32) rfl, lanes3_snd]
    rfl
  · refine Finset.sum_congr rfl fun j _ => ?_
    rw [Cert.LibConcatLanes3.concatenate3_lanes_apply (n0 := 128) (n1 := 128) (n2 := 32) rfl, lanes3_trd]
    rfl

/-- The message rows, entry by entry. -/
theorem msgE_apply (H : FVec Ideal S800000x128 .f32) (W2 : FVec Ideal S128x128 .f32) (b2 : FVec Ideal S128 .f32)
    (e : Fin 800000) (k : Fin 128) :
    msgE H W2 b2 (ix2 e k) = msg (fun j => H (ix2 e j)) (sqW W2) (vecB b2) k := by
  unfold msgE msg
  rw [siluE_apply, addf_apply, Cert.LibRowOps.dot_entry dot_S800000x128_S128x128_S800000x128_1_0_0_1_n_n rfl, biasE_apply]
  rfl

/-- The gate column, entry by entry. -/
theorem gateE_apply (G : FVec Ideal S800000x128 .f32) (We : FVec Ideal S128x1 .f32) (be : FVec Ideal S1 .f32) (e : Fin 800000) :
    gateE G We be (ix2 e (0 : Fin 1)) = gate (fun k => G (ix2 e k)) (colW We) (be (ix1 (0 : Fin 1))) := by
  unfold gateE gate
  rw [Cert.LibRowOps.host_sigmoid_apply _ oneC oneC _ (oneC_apply _) (oneC_apply _), addf_apply,
    Cert.LibRowOps.dot_entry dot_S800000x128_S128x1_S800000x1_1_0_0_1_n_n rfl, Cert.LibRowOps.unit_col_host]
  rfl

/-- The message stage is the layer's edge messages, with W1 cut into its three row stretches. -/
theorem refMsg_eq (XS XR : FVec Ideal S800000x128 .f32) (IV : FVec Ideal S800000x32 .f32) (W1 : FVec Ideal S288x128 .f32)
    (b1 : FVec Ideal S128 .f32) (W2 : FVec Ideal S128x128 .f32) (b2 : FVec Ideal S128 .f32) (We : FVec Ideal S128x1 .f32)
    (be : FVec Ideal S1 .f32) :
    refMsg XS XR IV W1 b1 W2 b2 We be
      = edgeMsgs XS XR IV (rowsTop W1) (rowsMid W1) (rowsLow W1) (vecB b1) (sqW W2) (vecB b2) (colW We) (be (ix1 (0 : Fin 1))) := by
  funext i
  obtain ⟨e, k, rfl⟩ : ∃ (e : Fin 800000) (k : Fin 128), i = ix2 e k := ⟨i 0, i 1, eq_ix2 i⟩
  rw [edgeMsgs_apply]
  unfold refMsg gatedE gated
  rw [mulf_apply, Cert.LibRowOps.col_bcast_host, gateE_apply, msgE_apply]
  have hrow : (fun j => msgE (hidE XS XR IV W1 b1) W2 b2 (ix2 e j))
      = msg (hid (fun j => XS (ix2 e j)) (fun j => XR (ix2 e j)) (fun j => IV (ix2 e j)) (rowsTop W1) (rowsMid W1) (rowsLow W1) (vecB b1))
          (sqW W2) (vecB b2) := by
    funext j
    rw [msgE_apply]
    exact congrArg (fun h => msg h (sqW W2) (vecB b2) j) (funext fun q => hidE_apply XS XR IV W1 b1 e q)
  rw [hrow]
  exact congrArg (fun h => msg h (sqW W2) (vecB b2) k * _) (funext fun q => hidE_apply XS XR IV W1 b1 e q)

/-- The update stage is the layer's node update, with Wu1 cut into its two row stretches. -/
theorem refUpd_eq (X AG : FVec Ideal S50000x128 .f32) (Wu1 : FVec Ideal S256x128 .f32) (bu1 : FVec Ideal S128 .f32)
    (Wu2 : FVec Ideal S128x128 .f32) (bu2 : FVec Ideal S128 .f32) :
    refUpd X AG Wu1 bu1 Wu2 bu2 = nodeUpd X AG (rowsTop2 Wu1) (rowsLow2 Wu1) (vecB bu1) (sqW Wu2) (vecB bu2) := by
  funext i
  obtain ⟨n, k, rfl⟩ : ∃ (n : Fin 50000) (k : Fin 128), i = ix2 n k := ⟨i 0, i 1, eq_ix2 i⟩
  rw [nodeUpd_apply]
  unfold refUpd upd
  rw [addf_apply, addf_apply, Cert.LibRowOps.dot_entry dot_S50000x128_S128x128_S50000x128_1_0_0_1_n_n rfl, biasN_apply]
  refine congrArg (fun s => X (ix2 n k) + (s + bu2 (ix1 k))) ?_
  refine Finset.sum_congr rfl fun j _ => ?_
  refine congrArg (· * Wu2 (ix2 j k)) ?_
  unfold uhid
  rw [siluN_apply]
  refine congrArg silu ?_
  rw [addf_apply, Cert.LibRowOps.dot_entry dot_S50000x256_S256x128_S50000x128_1_0_0_1_n_n rfl, biasN_apply, sum_split2]
  refine congrArg (· + bu1 (ix1 j)) ?_
  refine congrArg₂ (· + ·) ?_ ?_
  · refine Finset.sum_congr rfl fun q _ => ?_
    rw [Cert.LibConcat2.concatenate2_left (n₁ := 128) (n₂ := 128) (w := 256) X AG _ n ⟨q.val, by have := q.isLt; omega⟩ q rfl]
    rfl
  · refine Finset.sum_congr rfl fun q _ => ?_
    rw [Cert.LibConcat2.concatenate2_right (n₁ := 128) (n₂ := 128) (w := 256) X AG _ n ⟨128 + q.val, by have := q.isLt; omega⟩ q rfl]
    rfl

end Cert.ReferenceIdeal.RefValue

end
-- ==== Proof.RefRun.lean ====
/-
  The reference program's run, read stage by stage.

  The reference is 86 host operations in sequence, so every weakly fair execution terminates with each buffer at what
  the operations compute from the launch contents, one after the other. Reading the result back through all 86 at once
  would spell every value as often as it is used; instead the list is cut into eight consecutive stretches, at the values
  that are used more than once — the two pre-activations of the message network and its two activations, the gated
  messages, the update network's pre-activation and activation. A stretch is read for ANY contents W before it: its
  output as a function of the few buffers it reads (out…), and the buffers later stretches read, unchanged (keep…). The
  result is then the last stretch's output of the contents before it, rewritten stretch by stretch back to the launch
  contents: the update stage of the features and of the message stage's rows scatter-added by receiver into a zero array.
-/
import proofs.«116265_j46334107189561_2_alg».proof.Proof.RefOpsPatched
import proofs.«116265_j46334107189561_2_alg».proof.Proof.RefStages

set_option maxRecDepth 8192

noncomputable section

namespace Cert.ReferenceIdeal.RefRun

open Cert.ReferenceIdeal Cert.ReferenceIdeal.Gen Cert.ReferenceIdeal.ValueP Cert.ReferenceIdeal.RefValue
open Idealize.ShloMosaic Idealize.ShloMosaic.TcCoe Idealize.SL.Sem Idealize.ShloMosaic.StableHlo

variable {F : FTy → Type} [FloatOps F]

/-! ## The eight stretches -/

/-- Operations 0 … 26 of @main: the index vectors, the two gathers, the concatenation, its product with the first weight and the bias. -/
def opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v10, main_v17, main_arg2] main_v18 (fun u => concatenate S800000x288 1 [⟨S800000x128, u 0⟩, ⟨S800000x128, u 1⟩, ⟨S800000x32, u 2⟩] concatenates_S800000x128_S800000x128_S800000x32_S800000x288_d1),
    binary main_v18 main_arg3 main_v19 ((fun l r => Host.dotGeneral dot_S800000x288_S288x128_S800000x128_1_0_0_1_n_n none l r) : (⟨S800000x288, .f32⟩ : BufTy).Contents (Elt F) → (⟨S288x128, .f32⟩ : BufTy).Contents (Elt F) → (⟨S800000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v19 main_v21 main_v22 (addf : (⟨S800000x128, .f32⟩ : BufTy).Contents (Elt F) → (⟨S800000x128, .f32⟩ : BufTy).Contents (Elt F) → (⟨S800000x128, .f32⟩ : BufTy).Contents (Elt F)) ]

/-- Operations 27 … 35 of @main: silu of the first pre-activation. -/
def opsB : List (HloOp τ sig (Elt F)) :=
  [ TRef.unary (TRef.of (T := ⟨S800000x128, .f32⟩) main_v22) (TRef.of (T := ⟨S800000x128, .f32⟩) main_call0_v0) Host.negf,
    TRef.unary (TRef.of (T := ⟨S800000x128, .f32⟩) main_call0_v0) (TRef.of (T := ⟨S800000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S800000x128, .f32⟩) main_call0_v2) (broadcastInDim S800000x128 ![] bcast_S_S800000x128),
    TRef.binary (TRef.of (T := ⟨S800000x128, .f32⟩) main_call0_v2) (TRef.of (T := ⟨S800000x128, .f32⟩) main_call0_v1) (TRef.of (T := ⟨S800000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S800000x128, .f32⟩) main_call0_v4) (broadcastInDim S800000x128 ![] bcast_S_S800000x128),
    TRef.binary (TRef.of (T := ⟨S800000x128, .f32⟩) main_call0_v4) (TRef.of (T := ⟨S800000x128, .f32⟩) main_call0_v3) (TRef.of (T := ⟨S800000x128, .f32⟩) main_call0_v5) Host.divf,
    TRef.binary (TRef.of (T := ⟨S800000x128, .f32⟩) main_v22) (TRef.of (T := ⟨S800000x128, .f32⟩) main_call0_v5) (TRef.of (T := ⟨S800000x128, .f32⟩) main_v23) mulf ]

/-- Operations 36 … 39 of @main: the product with the second weight and the bias. -/
def opsC : List (HloOp τ sig (Elt F)) :=
  [ binary main_v23 main_arg5 main_v24 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S800000x128 ![0, 1] bcast_S1x128_S800000x128_0_1 : (⟨S1x128, .f32⟩ : BufTy).Contents (Elt F) → (⟨S800000x128, .f32⟩ : BufTy).Contents (Elt F)),
    binary main_v24 main_v26 main_v27 (addf : (⟨S800000x128, .f32⟩ : BufTy).Contents (Elt F) → (⟨S800000x128, .f32⟩ : BufTy).Contents (Elt F) → (⟨S800000x128, .f32⟩ : BufTy).Contents (Elt F)) ]

/-- Operations 40 … 48 of @main: silu of the second pre-activation. -/
def opsD : List (HloOp τ sig (Elt F)) :=
  [ TRef.unary (TRef.of (T := ⟨S800000x128, .f32⟩) main_v27) (TRef.of (T := ⟨S800000x128, .f32⟩) main_call1_v0) Host.negf,
    TRef.unary (TRef.of (T := ⟨S800000x128, .f32⟩) main_call1_v0) (TRef.of (T := ⟨S800000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S800000x128, .f32⟩) main_call1_v2) (broadcastInDim S800000x128 ![] bcast_S_S800000x128),
    TRef.binary (TRef.of (T := ⟨S800000x128, .f32⟩) main_call1_v2) (TRef.of (T := ⟨S800000x128, .f32⟩) main_call1_v1) (TRef.of (T := ⟨S800000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S800000x128, .f32⟩) main_call1_v4) (broadcastInDim S800000x128 ![] bcast_S_S800000x128),
    TRef.binary (TRef.of (T := ⟨S800000x128, .f32⟩) main_call1_v4) (TRef.of (T := ⟨S800000x128, .f32⟩) main_call1_v3) (TRef.of (T := ⟨S800000x128, .f32⟩) main_call1_v5) Host.divf,
    TRef.binary (TRef.of (T := ⟨S800000x128, .f32⟩) main_v27) (TRef.of (T := ⟨S800000x128, .f32⟩) main_call1_v5) (TRef.of (T := ⟨S800000x128, .f32⟩) main_v28) mulf ]

/-- Operations 49 … 62 of @main: the gate and the gated message rows. -/
def opsE : List (HloOp τ sig (Elt F)) :=
  [ binary main_v28 main_arg7 main_v29 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg8 main_v30 (broadcastInDim S1x1 ![1] bcast_S1_S1x1_1 : (⟨S1, .f32⟩ : BufTy).Contents (Elt F) → (⟨S1x1, .f32⟩ : BufTy).Contents (Elt F)),
    unary main_v30 main_v31 (broadcastInDim S800000x1 ![0, 1] bcast_S1x1_S800000x1_0_1 : (⟨S1x1, .f32⟩ : BufTy).Contents (Elt F) → (⟨S800000x1, .f32⟩ : BufTy).Contents (Elt F)),
    binary main_v29 main_v31 main_v32 (addf : (⟨S800000x1, .f32⟩ : BufTy).Contents (Elt F) → (⟨S800000x1, .f32⟩ : BufTy).Contents (Elt F) → (⟨S800000x1, .f32⟩ : BufTy).Contents (Elt F)),
    unary main_v32 main_v33 (Host.negf : (⟨S800000x1, .f32⟩ : BufTy).Contents (Elt F) → (⟨S800000x1, .f32⟩ : BufTy).Contents (Elt F)),
    unary main_v33 main_v34 (Host.exp : (⟨S800000x1, .f32⟩ : BufTy).Contents (Elt F) → (⟨S800000x1, .f32⟩ : BufTy).Contents (Elt F)),
    nullary main_cst (constant S_ .f32 0x3F800000#32),
    unary main_cst main_v35 (broadcastInDim S800000x1 ![] bcast_S_S800000x1 : (⟨S_, .f32⟩ : BufTy).Contents (Elt F) → (⟨S800000x1, .f32⟩ : BufTy).Contents (Elt F)),
    binary main_v35 main_v34 main_v36 (addf : (⟨S800000x1, .f32⟩ : BufTy).Contents (Elt F) → (⟨S800000x1, .f32⟩ : BufTy).Contents (Elt F) → (⟨S800000x1, .f32⟩ : BufTy).Contents (Elt F)),
    nullary main_cst_3 (constant S_ .f32 0x3F800000#32),
    unary main_cst_3 main_v37 (broadcastInDim S800000x1 ![] bcast_S_S800000x1 : (⟨S_, .f32⟩ : BufTy).Contents (Elt F) → (⟨S800000x1, .f32⟩ : BufTy).Contents (Elt F)),
    binary main_v37 main_v36 main_v38 (Host.divf : (⟨S800000x1, .f32⟩ : BufTy).Contents (Elt F) → (⟨S800000x1, .f32⟩ : BufTy).Contents (Elt F) → (⟨S800000x1, .f32⟩ : BufTy).Contents (Elt F)),
    unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v28 main_v39 main_v40 (mulf : (⟨S800000x128, .f32⟩ : BufTy).Contents (Elt F) → (⟨S800000x128, .f32⟩ : BufTy).Contents (Elt F) → (⟨S800000x128, .f32⟩ : BufTy).Contents (Elt F)) ]

/-- Operations 63 … 71 of @main: the scatter-add by receiver, the concatenation with the features, its product with the update network's first weight and the bias. -/
def opsF : List (HloOp τ sig (Elt F)) :=
  [ nullary main_cst_4 (constant S_ .f32 0x00000000#32),
    unary main_cst_4 main_v41 (broadcastInDim S50000x128 ![] bcast_S_S50000x128 : (⟨S_, .f32⟩ : BufTy).Contents (Elt F) → (⟨S50000x128, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v43 main_v44 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v44 main_arg9 main_v45 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- Operations 72 … 80 of @main: silu of the update network's pre-activation. -/
def opsG : List (HloOp τ sig (Elt F)) :=
  [ TRef.unary (TRef.of (T := ⟨S50000x128, .f32⟩) main_v48) (TRef.of (T := ⟨S50000x128, .f32⟩) main_call2_v0) Host.negf,
    TRef.unary (TRef.of (T := ⟨S50000x128, .f32⟩) main_call2_v0) (TRef.of (T := ⟨S50000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S50000x128, .f32⟩) main_call2_v2) (broadcastInDim S50000x128 ![] bcast_S_S50000x128),
    TRef.binary (TRef.of (T := ⟨S50000x128, .f32⟩) main_call2_v2) (TRef.of (T := ⟨S50000x128, .f32⟩) main_call2_v1) (TRef.of (T := ⟨S50000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S50000x128, .f32⟩) main_call2_v4) (broadcastInDim S50000x128 ![] bcast_S_S50000x128),
    TRef.binary (TRef.of (T := ⟨S50000x128, .f32⟩) main_call2_v4) (TRef.of (T := ⟨S50000x128, .f32⟩) main_call2_v3) (TRef.of (T := ⟨S50000x128, .f32⟩) main_call2_v5) Host.divf,
    TRef.binary (TRef.of (T := ⟨S50000x128, .f32⟩) main_v48) (TRef.of (T := ⟨S50000x128, .f32⟩) main_call2_v5) (TRef.of (T := ⟨S50000x128, .f32⟩) main_v49) mulf ]

/-- Operations 81 … 85 of @main: the product with the update network's second weight, the bias, and the residual sum. -/
def opsH : List (HloOp τ sig (Elt F)) :=
  [ binary main_v49 main_arg11 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    binary main_arg0 main_v53 main_v54 (addf : (⟨S50000x128, .f32⟩ : BufTy).Contents (Elt F) → (⟨S50000x128, .f32⟩ : BufTy).Contents (Elt F) → (⟨S50000x128, .f32⟩ : BufTy).Contents (Elt F)) ]

/-- @main's operations are the eight stretches in order. -/
theorem ops_split : (ops : List (HloOp τ sig (Elt F)))
    = opsA ++ (opsB ++ (opsC ++ (opsD ++ (opsE ++ (opsF ++ (opsG ++ opsH)))))) := rfl

/-- Running two lists of operations in sequence is running the second on what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## Each stretch, for any contents before it -/

theorem outA_main_v22 (W : Valuation τ sig (Elt Ideal)) :
    (after (opsA (F := Ideal)) W (Proc.devRef .tc main_v22) : S800000x128.Idx → EReal) =
      addf (Host.dotGeneral (F := Ideal) (φ₁ := .f32) (φ₂ := .f32) dot_S800000x288_S288x128_S800000x128_1_0_0_1_n_n none
        (concatenate S800000x288 1 [⟨S800000x128, Host.gather gather_S50000x128_S800000x1_S800000x128_1_0_n_n_0_1_1128 (W (Proc.devRef .tc main_arg0) : FVec Ideal S50000x128 .f32) (wrapIdx (idxRow 0 slices_S2x800000_S1x800000_0_0 (W (Proc.devRef .tc main_arg1) : IVec S2x800000 32)))⟩,
          ⟨S800000x128, Host.gather gather_S50000x128_S800000x1_S800000x128_1_0_n_n_0_1_1128 (W (Proc.devRef .tc main_arg0) : FVec Ideal S50000x128 .f32) (wrapIdx (idxRow 1 slices_S2x800000_S1x800000_1_0 (W (Proc.devRef .tc main_arg1) : IVec S2x800000 32)))⟩,
          ⟨S800000x32, (W (Proc.devRef .tc main_arg2) : FVec Ideal S800000x32 .f32)⟩] concatenates_S800000x128_S800000x128_S800000x32_S800000x288_d1) (W (Proc.devRef .tc main_arg3) : FVec Ideal S288x128 .f32))
      (biasE (W (Proc.devRef .tc main_arg4) : FVec Ideal S128 .f32)) := by
  simp only [opsA]
  after_results_simp <;> rfl

theorem outA_main_v3 (W : Valuation τ sig (Elt Ideal)) :
    (after (opsA (F := Ideal)) W (Proc.devRef .tc main_v3) : S800000.Idx → BitVec 32) =
      idxRow 1 slices_S2x800000_S1x800000_1_0 (W (Proc.devRef .tc main_arg1) : IVec S2x800000 32) := by
  simp only [opsA]
  after_results_simp <;> rfl

theorem keepA_main_arg5 (W : Valuation τ sig (Elt Ideal)) : after (opsA (F := Ideal)) W (Proc.devRef .tc main_arg5) = W (Proc.devRef .tc main_arg5) := by
  simp only [opsA]
  after_results_simp <;> rfl

theorem keepA_main_arg6 (W : Valuation τ sig (Elt Ideal)) : after (opsA (F := Ideal)) W (Proc.devRef .tc main_arg6) = W (Proc.devRef .tc main_arg6) := by
  simp only [opsA]
  after_results_simp <;> rfl

theorem keepA_main_arg7 (W : Valuation τ sig (Elt Ideal)) : after (opsA (F := Ideal)) W (Proc.devRef .tc main_arg7) = W (Proc.devRef .tc main_arg7) := by
  simp only [opsA]
  after_results_simp <;> rfl

theorem keepA_main_arg8 (W : Valuation τ sig (Elt Ideal)) : after (opsA (F := Ideal)) W (Proc.devRef .tc main_arg8) = W (Proc.devRef .tc main_arg8) := by
  simp only [opsA]
  after_results_simp <;> rfl

theorem keepA_main_arg0 (W : Valuation τ sig (Elt Ideal)) : after (opsA (F := Ideal)) W (Proc.devRef .tc main_arg0) = W (Proc.devRef .tc main_arg0) := by
  simp only [opsA]
  after_results_simp <;> rfl

theorem keepA_main_arg9 (W : Valuation τ sig (Elt Ideal)) : after (opsA (F := Ideal)) W (Proc.devRef .tc main_arg9) = W (Proc.devRef .tc main_arg9) := by
  simp only [opsA]
  after_results_simp <;> rfl

theorem keepA_main_arg10 (W : Valuation τ sig (Elt Ideal)) : after (opsA (F := Ideal)) W (Proc.devRef .tc main_arg10) = W (Proc.devRef .tc main_arg10) := by
  simp only [opsA]
  after_results_simp <;> rfl

theorem keepA_main_arg11 (W : Valuation τ sig (Elt Ideal)) : after (opsA (F := Ideal)) W (Proc.devRef .tc main_arg11) = W (Proc.devRef .tc main_arg11) := by
  simp only [opsA]
  after_results_simp <;> rfl

theorem keepA_main_arg12 (W : Valuation τ sig (Elt Ideal)) : after (opsA (F := Ideal)) W (Proc.devRef .tc main_arg12) = W (Proc.devRef .tc main_arg12) := by
  simp only [opsA]
  after_results_simp <;> rfl

theorem outB_main_v23 (W : Valuation τ sig (Elt Ideal)) :
    (after (opsB (F := Ideal)) W (Proc.devRef .tc main_v23) : S800000x128.Idx → EReal) =
      siluE (W (Proc.devRef .tc main_v22) : FVec Ideal S800000x128 .f32) := by
  simp only [opsB]
  after_results_simp <;> rfl

theorem keepB_main_arg5 (W : Valuation τ sig (Elt Ideal)) : after (opsB (F := Ideal)) W (Proc.devRef .tc main_arg5) = W (Proc.devRef .tc main_arg5) := by
  simp only [opsB]
  after_results_simp <;> rfl

theorem keepB_main_arg6 (W : Valuation τ sig (Elt Ideal)) : after (opsB (F := Ideal)) W (Proc.devRef .tc main_arg6) = W (Proc.devRef .tc main_arg6) := by
  simp only [opsB]
  after_results_simp <;> rfl

theorem keepB_main_arg7 (W : Valuation τ sig (Elt Ideal)) : after (opsB (F := Ideal)) W (Proc.devRef .tc main_arg7) = W (Proc.devRef .tc main_arg7) := by
  simp only [opsB]
  after_results_simp <;> rfl

theorem keepB_main_arg8 (W : Valuation τ sig (Elt Ideal)) : after (opsB (F := Ideal)) W (Proc.devRef .tc main_arg8) = W (Proc.devRef .tc main_arg8) := by
  simp only [opsB]
  after_results_simp <;> rfl

theorem keepB_main_arg0 (W : Valuation τ sig (Elt Ideal)) : after (opsB (F := Ideal)) W (Proc.devRef .tc main_arg0) = W (Proc.devRef .tc main_arg0) := by
  simp only [opsB]
  after_results_simp <;> rfl

theorem keepB_main_v3 (W : Valuation τ sig (Elt Ideal)) : after (opsB (F := Ideal)) W (Proc.devRef .tc main_v3) = W (Proc.devRef .tc main_v3) := by
  simp only [opsB]
  after_results_simp <;> rfl

theorem keepB_main_arg9 (W : Valuation τ sig (Elt Ideal)) : after (opsB (F := Ideal)) W (Proc.devRef .tc main_arg9) = W (Proc.devRef .tc main_arg9) := by
  simp only [opsB]
  after_results_simp <;> rfl

theorem keepB_main_arg10 (W : Valuation τ sig (Elt Ideal)) : after (opsB (F := Ideal)) W (Proc.devRef .tc main_arg10) = W (Proc.devRef .tc main_arg10) := by
  simp only [opsB]
  after_results_simp <;> rfl

theorem keepB_main_arg11 (W : Valuation τ sig (Elt Ideal)) : after (opsB (F := Ideal)) W (Proc.devRef .tc main_arg11) = W (Proc.devRef .tc main_arg11) := by
  simp only [opsB]
  after_results_simp <;> rfl

theorem keepB_main_arg12 (W : Valuation τ sig (Elt Ideal)) : after (opsB (F := Ideal)) W (Proc.devRef .tc main_arg12) = W (Proc.devRef .tc main_arg12) := by
  simp only [opsB]
  after_results_simp <;> rfl

theorem outC_main_v27 (W : Valuation τ sig (Elt Ideal)) :
    (after (opsC (F := Ideal)) W (Proc.devRef .tc main_v27) : S800000x128.Idx → EReal) =
      addf (Host.dotGeneral (F := Ideal) (φ₁ := .f32) (φ₂ := .f32) dot_S800000x128_S128x128_S800000x128_1_0_0_1_n_n none (W (Proc.devRef .tc main_v23) : FVec Ideal S800000x128 .f32) (W (Proc.devRef .tc main_arg5) : FVec Ideal S128x128 .f32)) (biasE (W (Proc.devRef .tc main_arg6) : FVec Ideal S128 .f32)) := by
  simp only [opsC]
  after_results_simp <;> rfl

theorem keepC_main_arg7 (W : Valuation τ sig (Elt Ideal)) : after (opsC (F := Ideal)) W (Proc.devRef .tc main_arg7) = W (Proc.devRef .tc main_arg7) := by
  simp only [opsC]
  after_results_simp <;> rfl

theorem keepC_main_arg8 (W : Valuation τ sig (Elt Ideal)) : after (opsC (F := Ideal)) W (Proc.devRef .tc main_arg8) = W (Proc.devRef .tc main_arg8) := by
  simp only [opsC]
  after_results_simp <;> rfl

theorem keepC_main_arg0 (W : Valuation τ sig (Elt Ideal)) : after (opsC (F := Ideal)) W (Proc.devRef .tc main_arg0) = W (Proc.devRef .tc main_arg0) := by
  simp only [opsC]
  after_results_simp <;> rfl

theorem keepC_main_v3 (W : Valuation τ sig (Elt Ideal)) : after (opsC (F := Ideal)) W (Proc.devRef .tc main_v3) = W (Proc.devRef .tc main_v3) := by
  simp only [opsC]
  after_results_simp <;> rfl

theorem keepC_main_arg9 (W : Valuation τ sig (Elt Ideal)) : after (opsC (F := Ideal)) W (Proc.devRef .tc main_arg9) = W (Proc.devRef .tc main_arg9) := by
  simp only [opsC]
  after_results_simp <;> rfl

theorem keepC_main_arg10 (W : Valuation τ sig (Elt Ideal)) : after (opsC (F := Ideal)) W (Proc.devRef .tc main_arg10) = W (Proc.devRef .tc main_arg10) := by
  simp only [opsC]
  after_results_simp <;> rfl

theorem keepC_main_arg11 (W : Valuation τ sig (Elt Ideal)) : after (opsC (F := Ideal)) W (Proc.devRef .tc main_arg11) = W (Proc.devRef .tc main_arg11) := by
  simp only [opsC]
  after_results_simp <;> rfl

theorem keepC_main_arg12 (W : Valuation τ sig (Elt Ideal)) : after (opsC (F := Ideal)) W (Proc.devRef .tc main_arg12) = W (Proc.devRef .tc main_arg12) := by
  simp only [opsC]
  after_results_simp <;> rfl

theorem outD_main_v28 (W : Valuation τ sig (Elt Ideal)) :
    (after (opsD (F := Ideal)) W (Proc.devRef .tc main_v28) : S800000x128.Idx → EReal) =
      siluE (W (Proc.devRef .tc main_v27) : FVec Ideal S800000x128 .f32) := by
  simp only [opsD]
  after_results_simp <;> rfl

theorem keepD_main_arg7 (W : Valuation τ sig (Elt Ideal)) : after (opsD (F := Ideal)) W (Proc.devRef .tc main_arg7) = W (Proc.devRef .tc main_arg7) := by
  simp only [opsD]
  after_results_simp <;> rfl

theorem keepD_main_arg8 (W : Valuation τ sig (Elt Ideal)) : after (opsD (F := Ideal)) W (Proc.devRef .tc main_arg8) = W (Proc.devRef .tc main_arg8) := by
  simp only [opsD]
  after_results_simp <;> rfl

theorem keepD_main_arg0 (W : Valuation τ sig (Elt Ideal)) : after (opsD (F := Ideal)) W (Proc.devRef .tc main_arg0) = W (Proc.devRef .tc main_arg0) := by
  simp only [opsD]
  after_results_simp <;> rfl

theorem keepD_main_v3 (W : Valuation τ sig (Elt Ideal)) : after (opsD (F := Ideal)) W (Proc.devRef .tc main_v3) = W (Proc.devRef .tc main_v3) := by
  simp only [opsD]
  after_results_simp <;> rfl

theorem keepD_main_arg9 (W : Valuation τ sig (Elt Ideal)) : after (opsD (F := Ideal)) W (Proc.devRef .tc main_arg9) = W (Proc.devRef .tc main_arg9) := by
  simp only [opsD]
  after_results_simp <;> rfl

theorem keepD_main_arg10 (W : Valuation τ sig (Elt Ideal)) : after (opsD (F := Ideal)) W (Proc.devRef .tc main_arg10) = W (Proc.devRef .tc main_arg10) := by
  simp only [opsD]
  after_results_simp <;> rfl

theorem keepD_main_arg11 (W : Valuation τ sig (Elt Ideal)) : after (opsD (F := Ideal)) W (Proc.devRef .tc main_arg11) = W (Proc.devRef .tc main_arg11) := by
  simp only [opsD]
  after_results_simp <;> rfl

theorem keepD_main_arg12 (W : Valuation τ sig (Elt Ideal)) : after (opsD (F := Ideal)) W (Proc.devRef .tc main_arg12) = W (Proc.devRef .tc main_arg12) := by
  simp only [opsD]
  after_results_simp <;> rfl

theorem outE_main_v40 (W : Valuation τ sig (Elt Ideal)) :
    (after (opsE (F := Ideal)) W (Proc.devRef .tc main_v40) : S800000x128.Idx → EReal) =
      gatedE (W (Proc.devRef .tc main_v28) : FVec Ideal S800000x128 .f32) (W (Proc.devRef .tc main_arg7) : FVec Ideal S128x1 .f32) (W (Proc.devRef .tc main_arg8) : FVec Ideal S1 .f32) := by
  simp only [opsE]
  after_results_simp <;> rfl

theorem keepE_main_arg0 (W : Valuation τ sig (Elt Ideal)) : after (opsE (F := Ideal)) W (Proc.devRef .tc main_arg0) = W (Proc.devRef .tc main_arg0) := by
  simp only [opsE]
  after_results_simp <;> rfl

theorem keepE_main_v3 (W : Valuation τ sig (Elt Ideal)) : after (opsE (F := Ideal)) W (Proc.devRef .tc main_v3) = W (Proc.devRef .tc main_v3) := by
  simp only [opsE]
  after_results_simp <;> rfl

theorem keepE_main_arg9 (W : Valuation τ sig (Elt Ideal)) : after (opsE (F := Ideal)) W (Proc.devRef .tc main_arg9) = W (Proc.devRef .tc main_arg9) := by
  simp only [opsE]
  after_results_simp <;> rfl

theorem keepE_main_arg10 (W : Valuation τ sig (Elt Ideal)) : after (opsE (F := Ideal)) W (Proc.devRef .tc main_arg10) = W (Proc.devRef .tc main_arg10) := by
  simp only [opsE]
  after_results_simp <;> rfl

theorem keepE_main_arg11 (W : Valuation τ sig (Elt Ideal)) : after (opsE (F := Ideal)) W (Proc.devRef .tc main_arg11) = W (Proc.devRef .tc main_arg11) := by
  simp only [opsE]
  after_results_simp <;> rfl

theorem keepE_main_arg12 (W : Valuation τ sig (Elt Ideal)) : after (opsE (F := Ideal)) W (Proc.devRef .tc main_arg12) = W (Proc.devRef .tc main_arg12) := by
  simp only [opsE]
  after_results_simp <;> rfl

theorem outF_main_v48 (W : Valuation τ sig (Elt Ideal)) :
    (after (opsF (F := Ideal)) W (Proc.devRef .tc main_v48) : S50000x128.Idx → EReal) =
      addf (Host.dotGeneral (F := Ideal) (φ₁ := .f32) (φ₂ := .f32) dot_S50000x256_S256x128_S50000x128_1_0_0_1_n_n none
        (concatenate S50000x256 1 [⟨S50000x128, (W (Proc.devRef .tc main_arg0) : FVec Ideal S50000x128 .f32)⟩,
          ⟨S50000x128, Host.scatterAdd scatter_S50000x128_S800000x1_S800000x128_1_0_0_1
            (broadcastInDim S50000x128 ![] bcast_S_S50000x128 (constant (F := Ideal) S_ .f32 0x00000000#32))
            (broadcastInDim S800000x1 ![0] bcast_S800000_S800000x1_0 (W (Proc.devRef .tc main_v3) : IVec S800000 32)) (W (Proc.devRef .tc main_v40) : FVec Ideal S800000x128 .f32)⟩]
          concatenates_S50000x128_S50000x128_S50000x256_d1) (W (Proc.devRef .tc main_arg9) : FVec Ideal S256x128 .f32))
      (biasN (W (Proc.devRef .tc main_arg10) : FVec Ideal S128 .f32)) := by
  simp only [opsF]
  after_results_simp <;> rfl

theorem keepF_main_arg0 (W : Valuation τ sig (Elt Ideal)) : after (opsF (F := Ideal)) W (Proc.devRef .tc main_arg0) = W (Proc.devRef .tc main_arg0) := by
  simp only [opsF]
  after_results_simp <;> rfl

theorem keepF_main_arg11 (W : Valuation τ sig (Elt Ideal)) : after (opsF (F := Ideal)) W (Proc.devRef .tc main_arg11) = W (Proc.devRef .tc main_arg11) := by
  simp only [opsF]
  after_results_simp <;> rfl

theorem keepF_main_arg12 (W : Valuation τ sig (Elt Ideal)) : after (opsF (F := Ideal)) W (Proc.devRef .tc main_arg12) = W (Proc.devRef .tc main_arg12) := by
  simp only [opsF]
  after_results_simp <;> rfl

theorem outG_main_v49 (W : Valuation τ sig (Elt Ideal)) :
    (after (opsG (F := Ideal)) W (Proc.devRef .tc main_v49) : S50000x128.Idx → EReal) =
      siluN (W (Proc.devRef .tc main_v48) : FVec Ideal S50000x128 .f32) := by
  simp only [opsG]
  after_results_simp <;> rfl

theorem keepG_main_arg0 (W : Valuation τ sig (Elt Ideal)) : after (opsG (F := Ideal)) W (Proc.devRef .tc main_arg0) = W (Proc.devRef .tc main_arg0) := by
  simp only [opsG]
  after_results_simp <;> rfl

theorem keepG_main_arg11 (W : Valuation τ sig (Elt Ideal)) : after (opsG (F := Ideal)) W (Proc.devRef .tc main_arg11) = W (Proc.devRef .tc main_arg11) := by
  simp only [opsG]
  after_results_simp <;> rfl

theorem keepG_main_arg12 (W : Valuation τ sig (Elt Ideal)) : after (opsG (F := Ideal)) W (Proc.devRef .tc main_arg12) = W (Proc.devRef .tc main_arg12) := by
  simp only [opsG]
  after_results_simp <;> rfl

theorem outH_main_v54 (W : Valuation τ sig (Elt Ideal)) :
    (after (opsH (F := Ideal)) W (Proc.devRef .tc main_v54) : S50000x128.Idx → EReal) =
      addf (W (Proc.devRef .tc main_arg0) : FVec Ideal S50000x128 .f32) (addf (Host.dotGeneral (F := Ideal) (φ₁ := .f32) (φ₂ := .f32) dot_S50000x128_S128x128_S50000x128_1_0_0_1_n_n none (W (Proc.devRef .tc main_v49) : FVec Ideal S50000x128 .f32) (W (Proc.devRef .tc main_arg11) : FVec Ideal S128x128 .f32)) (biasN (W (Proc.devRef .tc main_arg12) : FVec Ideal S128 .f32))) := by
  simp only [opsH]
  after_results_simp <;> rfl

/-! ## The result -/

/-- The layer's result as the reference spells it: the update stage of the features, and of the message stage's rows
    scatter-added by receiver into a zero array, the message stage taking the rows gathered by sender and by receiver. -/
def result (m : (ℓ : Loc nD τ sig) → Buf (Elt Ideal) ℓ) (c : Dev nD) : S50000x128.Idx → EReal :=
  refUpd (m ((c.tc : Thread nD τ).loc main_arg0))
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (idxRow 1 slices_S2x800000_S1x800000_1_0 (m ((c.tc : Thread nD τ).loc main_arg1))))
      (refMsg
        (Host.gather gather_S50000x128_S800000x1_S800000x128_1_0_n_n_0_1_1128 (m ((c.tc : Thread nD τ).loc main_arg0))
          (wrapIdx (idxRow 0 slices_S2x800000_S1x800000_0_0 (m ((c.tc : Thread nD τ).loc main_arg1)))))
        (Host.gather gather_S50000x128_S800000x1_S800000x128_1_0_n_n_0_1_1128 (m ((c.tc : Thread nD τ).loc main_arg0))
          (wrapIdx (idxRow 1 slices_S2x800000_S1x800000_1_0 (m ((c.tc : Thread nD τ).loc main_arg1)))))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
    (m ((c.tc : Thread nD τ).loc main_arg9)) (m ((c.tc : Thread nD τ).loc main_arg10)) (m ((c.tc : Thread nD τ).loc main_arg11)) (m ((c.tc : Thread nD τ).loc main_arg12))

/-- The result buffer after all 86 operations, from the launch contents. -/
theorem result_eq (m : (ℓ : Loc nD τ sig) → Buf (Elt Ideal) ℓ) (c : Dev nD) :
    (after (ops (F := Ideal)) (launchContents m c) (Proc.devRef .tc main_v54) : S50000x128.Idx → EReal) = result m c := by
  rw [ops_split]
  simp only [after_append]
  rw [outH_main_v54]
  rw [outG_main_v49, keepG_main_arg0, keepG_main_arg11, keepG_main_arg12]
  rw [outF_main_v48, keepF_main_arg0, keepF_main_arg11, keepF_main_arg12]
  rw [outE_main_v40, keepE_main_arg0, keepE_main_v3, keepE_main_arg9, keepE_main_arg10, keepE_main_arg11, keepE_main_arg12]
  rw [outD_main_v28, keepD_main_arg7, keepD_main_arg8, keepD_main_arg0, keepD_main_v3, keepD_main_arg9, keepD_main_arg10, keepD_main_arg11, keepD_main_arg12]
  rw [outC_main_v27, keepC_main_arg7, keepC_main_arg8, keepC_main_arg0, keepC_main_v3, keepC_main_arg9, keepC_main_arg10, keepC_main_arg11, keepC_main_arg12]
  rw [outB_main_v23, keepB_main_arg5, keepB_main_arg6, keepB_main_arg7, keepB_main_arg8, keepB_main_arg0, keepB_main_v3, keepB_main_arg9, keepB_main_arg10, keepB_main_arg11, keepB_main_arg12]
  rw [outA_main_v22, outA_main_v3, keepA_main_arg5, keepA_main_arg6, keepA_main_arg7, keepA_main_arg8, keepA_main_arg0, keepA_main_arg9, keepA_main_arg10, keepA_main_arg11, keepA_main_arg12]
  rfl

set_option maxHeartbeats 34400000 in
/-- On every device, from any memory with zero counters: every weakly fair execution of the reference terminates with the
    layer's result in the result buffer and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v54).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.RefRun

end
-- ==== Proof.lean ====
/-
  A graph layer with gated messages, as a tiled kernel and as a plain program: equal results over the extended reals.

  The layer. Every edge e, from sender s(e) to receiver r(e), carries the feature rows x[s(e)] and x[r(e)] (128 entries
  each) and a row of 32 invariants. With silu(y) = y · σ(y) and σ the logistic function, the edge's message is
      hid = silu([x[s(e)] | x[r(e)] | inv[e]] · W1 + b1),   msg = silu(hid · W2 + b2),   gated = msg · σ(msg · We + be),
  the gated messages are summed into their receivers, ag[n] = Σ_{r(e) = n} gated[e], and every node is updated,
      out[n] = x[n] + silu([x[n] | ag[n]] · Wu1 + bu1) · Wu2 + bu2.

  The two programs. The reference concatenates and multiplies whole arrays on the host. The kernel gathers the endpoint
  rows on the host, runs the message network in one region over blocks of 8000 edges — the product with W1 as three partial
  products with W1's three stretches of rows, added left to right, and the gate's projection as a lane sum of msg · We —,
  scatter-adds on the host, and runs the update network in a second region over blocks of 5000 nodes, the product with Wu1
  as two partial products. Its changes of float format are the identity over the extended reals, and its logistic function
  is the function the reference spells with negate, exponential, add and divide.

  Why they agree. A row of either region's output depends on the same row of its row-wise operands only, so each region's
  output array is one whole-array function of what the region finds (LayerSpec.edgeMsgs, LayerSpec.nodeUpd), and the
  blocks tile the rows. The reference's stages are the same two functions once a product with a concatenation is read as
  a sum over the concatenated lanes and that sum is cut into the pieces' stretches: a regrouping of a finite sum, valid in
  any commutative monoid, so no entry needs to be finite and the precondition is never opened. The gathers and the
  scatter-add are the same host operations on the same operands in both programs and are carried along unopened.

  The frames of the two kernel programs are the generated ones; the reference's frame is its run with the result dropped; the idealization rewrote nothing, so there is nothing to preserve.
-/
import proofs.«116265_j46334107189561_2_alg».proof.Defs
import proofs.«116265_j46334107189561_2_alg».proof.Proof.Gen.Kernel
import proofs.«116265_j46334107189561_2_alg».proof.Proof.Gen.Kernel.Skeleton
import proofs.«116265_j46334107189561_2_alg».proof.Proof.Gen.Kernel.Launch
import proofs.«116265_j46334107189561_2_alg».proof.Proof.Gen.Kernel.Points
import proofs.«116265_j46334107189561_2_alg».proof.Proof.Gen.Kernel.Frame
import proofs.«116265_j46334107189561_2_alg».proof.Proof.Gen.KernelIdeal
import proofs.«116265_j46334107189561_2_alg».proof.Proof.Gen.KernelIdeal.Skeleton
import proofs.«116265_j46334107189561_2_alg».proof.Proof.Gen.KernelIdeal.Launch
import proofs.«116265_j46334107189561_2_alg».proof.Proof.Gen.KernelIdeal.Points
import proofs.«116265_j46334107189561_2_alg».proof.Proof.Gen.KernelIdeal.Frame
import proofs.«116265_j46334107189561_2_alg».proof.Proof.Gen.ReferenceIdeal
import proofs.«116265_j46334107189561_2_alg».proof.Proof.Gen.Pre_finite_inputs
import proofs.«116265_j46334107189561_2_alg».proof.Proof.KernelValue
import proofs.«116265_j46334107189561_2_alg».proof.Proof.RefStages
import proofs.«116265_j46334107189561_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- From memories that agree on the arguments both idealized programs end with the layer's result of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8, a9, a10, a11, a12⟩ := hagree c
  unfold Cert.ReferenceIdeal.RefRun.result
  rw [Cert.ReferenceIdeal.RefValue.refUpd_eq, Cert.ReferenceIdeal.RefValue.refMsg_eq,
    a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
